-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S128x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩

abbrev nBuf : Space → Nat
  | .hbm => 82
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S64x64, .f32⟩
  | .hbm, ⟨37, _⟩ => ⟨S64x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  slices_S128x64_S64x64_0_0 : S128x64.Slices ![0, 0] S64x64
  slices_S128x64_S64x64_64_0 : S128x64.Slices ![64, 0] S64x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33_0) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S1600000x128 : Shape := ⟨2, ![1600000, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's whole run, with its final memory named.

  @main is four kernel launches among stretches of host operations. Starting from the launch memory, each host stretch
  replaces the buffers it writes by its operations' values, and each launch replaces its operand arrays by what its
  write-backs leave; folding these eight steps over the launch memory gives one valuation of the buffers, `Gen.W8`.
  Every weakly fair execution of @main terminates without a fault, and in its final memory every buffer that is not
  scoped to a kernel holds exactly what that fold assigns it (`run_all`). In particular the result buffer holds the
  fold's value there and the nine argument arrays are as launched (`run_result`).
-/
import proofs.«106296_j65111704207521_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every buffer not scoped to a kernel holds the fold's value. -/
def EndsAtFold (c : Dev nD) (s : MemSt nD τ sig (Elt F)) : Prop :=
  ∀ b ∈ Pipeline.ucRefs τ sig, s.mem (((c : Thread nD τ)).1, b) = W8 m ρ c b

set_option backward.isDefEq.respectTransparency.types false in
/-- Every weakly fair execution of @main terminates, nothing faulting, with every unscoped buffer at the fold `W8`. -/
theorem run_all : θ_run defs (onTc (τ := τ) (main (F := F))) ⟨m, fun _ => 0, ρ⟩
    (fun r => ∀ c : Dev nD, EndsAtFold m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' initial element itself; no per-core ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- per core: the launch's unscoped buffers are the buffers held at the launch valuation; the generator register
      -- and the (empty) debt ride along
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := EndsAtFold m ρ)
    (hfin := fun c s' => by
      -- the buffers held at the fold, beside a final state's interpretation, say what that state's memory holds
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer named and the arguments as launched. -/
theorem run_result : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v55 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.KernelIdeal.RunValue

end
-- ==== Proof.LibDense.lean ====
/-
  A dense layer read entry by entry, on the extended reals.

  The product of an M×K matrix X by a K×N matrix W has, at entry (r, c), the sum over k of X(r,k)·W(k,c). A tiled
  kernel computes it block of rows by block of rows, each block a product accumulated into a zero splat; a host
  program computes it with one product and no accumulator. Both are this one function, and since each output entry is
  a sum over the contracted coordinate only, a block of rows of the product is the product of that block of rows.
  A bias vector b added along the rows followed by max(·, 0) is read the same way: entry (r, k) is
  max(A(r,k) + b(k), 0). Nothing here cancels or distributes, so every statement holds at the infinities too.
  Stated for any extents.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

variable {M K N : ℕ}

/-- The float zero word read at the ideal values. -/
abbrev zeroWord : EReal := Ideal.ofBits .f32 0x00000000#32

/-- The product of an M×K matrix by a K×N matrix: entry (r, c) is the sum over k of X(r,k)·W(k,c). -/
def matProd (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply (X : (⟨2, ![M, K]⟩ : Shape).Idx → EReal) (W : (⟨2, ![K, N]⟩ : Shape).Idx → EReal)
    (r : Fin M) (c : Fin N) : matProd X W (ix2 r c) = ∑ k : Fin K, X (ix2 r k) * W (ix2 k c) := rfl

/-- A bias vector added along the rows of an M×K matrix, then the positive part: entry (r, k) is max(A(r,k) + b(k), 0). -/
def biasRelu (A : (⟨2, ![M, K]⟩ : Shape).Idx → EReal) (b : (⟨1, ![K]⟩ : Shape).Idx → EReal) :
    (⟨2, ![M, K]⟩ : Shape).Idx → EReal :=
  fun i => max (A i + b (ix1 (i 1))) zeroWord

theorem biasRelu_apply (A : (⟨2, ![M, K]⟩ : Shape).Idx → EReal) (b : (⟨1, ![K]⟩ : Shape).Idx → EReal)
    (r : Fin M) (k : Fin K) : biasRelu A b (ix2 r k) = max (A (ix2 r k) + b (ix1 k)) zeroWord := rfl

/-- The host's product of two matrices, with the plain contraction (rows of the left against columns of the right), is
    `matProd`. -/
theorem dotGeneral_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = matProd X W := by
  subst hd
  funext i
  obtain ⟨r, c, rfl⟩ : ∃ (r : Fin M) (c : Fin N), i = ix2 r c := ⟨i 0, i 1, eq_ix2 i⟩
  rw [StackMember.dotGeneral_plain_apply, matProd_apply]

/-- A kernel's product accumulated into the zero splat, with the plain contraction, is `matProd`: the accumulator
    contributes 0 + s = s. -/
theorem matmul_zero_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    matmul d none X W (constant ⟨2, ![M, N]⟩ .f32 0x00000000#32) = matProd X W := by
  rw [matmul_zero_eq_dotGeneral]
  exact dotGeneral_eq_matProd d hd X W

/-- The kernel's spelling of the bias step on a block — the bias held as a one-row matrix and broadcast down the rows,
    added, and compared with a zero splat — is `biasRelu` of the row read as a vector. -/
theorem blockBiasRelu_eq (A : FVec Ideal ⟨2, ![M, K]⟩ .f32) (B : FVec Ideal ⟨2, ![1, K]⟩ .f32)
    (hb : (⟨2, ![1, K]⟩ : Shape).Broadcasts ⟨2, ![M, K]⟩) :
    maximumf (addf A (broadcastTo ⟨2, ![M, K]⟩ B hb)) (broadcast ⟨2, ![M, K]⟩ (Scalar.ofBits (F := Ideal) .f32 0x00000000#32))
      = biasRelu A (fun j => B (ix2 (0 : Fin 1) (j 0))) := by
  funext i
  obtain ⟨r, k, rfl⟩ : ∃ (r : Fin M) (k : Fin K), i = ix2 r k := ⟨i 0, i 1, eq_ix2 i⟩
  rw [maximumf_apply, addf_apply, broadcastTo_1b_ab_apply, biasRelu_apply]
  rfl

end Cert.Dense

end
-- ==== Proof.Spec.lean ====
/-
  The four kernel bodies as functions of whole arrays, and how each restricts to a block of 5000 rows.

  Every launch walks the 100000 node rows in 20 blocks of 5000; a row's output depends only on that row of the
  row-indexed operands and on the small operands (weights, bias) whole. So each body, written for all rows at once, is
  a function `G` of whole arrays with the property that block `t` of `G` is the same formula applied to block `t` of
  the row-indexed operands. The formulas:
  * scaled product: `(X(r,k) · s(r)) ` summed against `W(k,c)` over `k`;
  * normalise, bias, positive part: `max (g(r,k) · d(r) + b(k)) 0`;
  * two products added: `∑ k, A(r,k)·WA(k,c) + ∑ k, B(r,k)·WB(k,c)`;
  * a bias row added: `x(r,c) + b(c)`.
-/
import Idealize.ShloMosaic.Lib.ValueIdx
import proofs.«106296_j65111704207521_2_alg».proof.Proof.LibDense

noncomputable section

namespace Cert.Bridge.Spec

open Idealize.ShloMosaic Idealize.ShloMosaic.ValueIdx Cert.Dense
open scoped BigOperators

/-- All node rows, `C` columns. -/
abbrev Rows (C : ℕ) : Shape := ⟨2, ![100000, C]⟩
/-- One block of 5000 rows. -/
abbrev Blk (C : ℕ) : Shape := ⟨2, ![5000, C]⟩

/-- Row `p` of block `t` is row `5000 t + p` of the whole. -/
def rowIx {C : ℕ} (t : ℕ) (ht : t < 20) (y : (Blk C).Idx) : (Rows C).Idx :=
  ix2 (⟨5000 * t + (y 0).val, by have h : (y 0).val < 5000 := (y 0).isLt; omega⟩ : Fin 100000) (y 1 : Fin C)

theorem rowIx_ix2 {C : ℕ} (t : ℕ) (ht : t < 20) (p : Fin 5000) (q : Fin C) :
    rowIx t ht (ix2 p q) = ix2 (⟨5000 * t + p.val, by have := p.isLt; omega⟩ : Fin 100000) q := rfl

/-- A column `[M,1]` read on row `r`. -/
abbrev colAt {M : ℕ} (s : (⟨2, ![M, 1]⟩ : Shape).Idx → EReal) (r : Fin M) : EReal := s (ix2 r (0 : Fin 1))

/-- Rows scaled by a column. -/
def scaleRows {M K : ℕ} (X : (⟨2, ![M, K]⟩ : Shape).Idx → EReal) (s : (⟨2, ![M, 1]⟩ : Shape).Idx → EReal) :
    (⟨2, ![M, K]⟩ : Shape).Idx → EReal := fun i => X i * s (ix2 (i 0) (0 : Fin 1))

theorem scaleRows_apply {M K : ℕ} (X : (⟨2, ![M, K]⟩ : Shape).Idx → EReal) (s : (⟨2, ![M, 1]⟩ : Shape).Idx → EReal)
    (r : Fin M) (k : Fin K) : scaleRows X s (ix2 r k) = X (ix2 r k) * s (ix2 r (0 : Fin 1)) := rfl

/-- Normalise by a column, add a bias along the rows, take the positive part. -/
def normBiasRelu {M K : ℕ} (g : (⟨2, ![M, K]⟩ : Shape).Idx → EReal) (d : (⟨2, ![M, 1]⟩ : Shape).Idx → EReal)
    (b : (⟨2, ![1, K]⟩ : Shape).Idx → EReal) : (⟨2, ![M, K]⟩ : Shape).Idx → EReal :=
  fun i => max (g i * d (ix2 (i 0) (0 : Fin 1)) + b (ix2 (0 : Fin 1) (i 1))) zeroWord

theorem normBiasRelu_apply {M K : ℕ} (g : (⟨2, ![M, K]⟩ : Shape).Idx → EReal) (d : (⟨2, ![M, 1]⟩ : Shape).Idx → EReal)
    (b : (⟨2, ![1, K]⟩ : Shape).Idx → EReal) (r : Fin M) (k : Fin K) :
    normBiasRelu g d b (ix2 r k) = max (g (ix2 r k) * d (ix2 r (0 : Fin 1)) + b (ix2 (0 : Fin 1) k)) zeroWord := rfl

theorem zeroWord_eq : zeroWord = 0 := Ideal.ofBits_zero_f32

theorem normBiasRelu_nonneg {M K : ℕ} (g : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : 0 ≤ normBiasRelu g d b i := by
  unfold normBiasRelu
  exact (le_of_eq zeroWord_eq.symm).trans (le_max_right _ _)

/-- A bias row added along the rows. -/
def addRow {M K : ℕ} (x : (⟨2, ![M, K]⟩ : Shape).Idx → EReal) (b : (⟨2, ![1, K]⟩ : Shape).Idx → EReal) :
    (⟨2, ![M, K]⟩ : Shape).Idx → EReal := fun i => x i + b (ix2 (0 : Fin 1) (i 1))

/-! ## Restriction to a block of rows -/

variable {K N : ℕ}

/-- Block `t` of a product is the product of block `t` of the left factor. -/
theorem matProd_rows (X : (Rows K).Idx → EReal) (W : (⟨2, ![K, N]⟩ : Shape).Idx → EReal) (t : ℕ) (ht : t < 20)
    (j : (Blk N).Idx) :
    matProd (M := 100000) X W (rowIx t ht j) = matProd (M := 5000) (fun y => X (rowIx t ht y)) W j := by
  obtain ⟨p, q, rfl⟩ : ∃ (p : Fin 5000) (q : Fin N), j = ix2 p q := ⟨j 0, j 1, eq_ix2 j⟩
  rw [rowIx_ix2, matProd_apply, matProd_apply]
  rfl

theorem scaleRows_rows (X : (Rows K).Idx → EReal) (s : (Rows 1).Idx → EReal) (t : ℕ) (ht : t < 20) (y : (Blk K).Idx) :
    scaleRows (M := 100000) X s (rowIx t ht y)
      = scaleRows (M := 5000) (fun y => X (rowIx t ht y)) (fun y => s (rowIx t ht y)) y := by
  obtain ⟨p, q, rfl⟩ : ∃ (p : Fin 5000) (q : Fin K), y = ix2 p q := ⟨y 0, y 1, eq_ix2 y⟩
  rfl

theorem normBiasRelu_rows (g : (Rows K).Idx → EReal) (d : (Rows 1).Idx → EReal) (b : (⟨2, ![1, K]⟩ : Shape).Idx → EReal)
    (t : ℕ) (ht : t < 20) (y : (Blk K).Idx) :
    normBiasRelu (M := 100000) g d b (rowIx t ht y)
      = normBiasRelu (M := 5000) (fun y => g (rowIx t ht y)) (fun y => d (rowIx t ht y)) b y := by
  obtain ⟨p, q, rfl⟩ : ∃ (p : Fin 5000) (q : Fin K), y = ix2 p q := ⟨y 0, y 1, eq_ix2 y⟩
  rfl

theorem addRow_rows (x : (Rows K).Idx → EReal) (b : (⟨2, ![1, K]⟩ : Shape).Idx → EReal) (t : ℕ) (ht : t < 20)
    (y : (Blk K).Idx) :
    addRow (M := 100000) x b (rowIx t ht y) = addRow (M := 5000) (fun y => x (rowIx t ht y)) b y := by
  obtain ⟨p, q, rfl⟩ : ∃ (p : Fin 5000) (q : Fin K), y = ix2 p q := ⟨y 0, y 1, eq_ix2 y⟩
  rfl

end Cert.Bridge.Spec

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Region0.lean ====
/-
  The first launch: every node's feature row, scaled by that node's out-degree norm, times the first weight matrix.

  The launch walks the 100000 rows in 20 blocks of 5000. At block `t` the body loads rows `5000 t … 5000 t + 4999`
  of the features and of the norm column, and the weight matrix whole, and stores the product of the scaled rows with
  the weights into the same rows of the output. A product's row depends only on the same row of its left factor, so
  what block `t` writes back is block `t` of the product of ALL scaled rows with the weights; the 20 blocks tile the
  output, hence the output array ends as that product.
-/
import proofs.«106296_j65111704207521_2_alg».proof.Proof.Gen.KernelIdeal.Frame
import proofs.«106296_j65111704207521_2_alg».proof.Proof.Spec
import proofs.«106296_j65111704207521_2_alg».proof.Proof.LibDense
import proofs.«106296_j65111704207521_2_alg».proof.Proof.LibLayout
import Idealize.ShloMosaic.PureOps.Ideal
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Spec Cert.Bridge.Layout Cert.Dense
open scoped BigOperators

variable (V : (c : Dev nD) → (b : Ref sig .tc) → Buf (Elt Ideal) ((c : Thread nD τ).loc b))

/-- The whole output: scaled rows times weights. -/
def G (A0 : S100000x128.Idx → EReal) (A1 : S100000x1.Idx → EReal) (A2 : S128x64.Idx → EReal) : S100000x64.Idx → EReal :=
  matProd (M := 100000) (scaleRows A0 A1) A2

theorem hz : (![0, 0] : Fin 2 → Nat) = fun _ => 0 := funext fun a => by fin_cases a <;> rfl

/-- The body on one block: the block's scaled rows times the weights (a change of float format is the identity, the
    product into a zero accumulator is the plain product). -/
theorem body (x0 : Vec Ideal S5000x128 .f32) (x1 : Vec Ideal S5000x1 .f32) (x2 : Vec Ideal S128x64 .f32) :
    k0_pay1 x0 x1 x2 = matProd (M := 5000) (scaleRows x0 x1) x2 := by
  unfold k0_pay1
  have hs : (mulf x0 (broadcastTo S5000x128 (shapeCast S5000x1 x1 shapeCasts_S5000x1_S5000x1)
      broadcasts_S5000x1_S5000x128) : FVec Ideal S5000x128 .f32) = scaleRows x0 x1 := by
    funext i
    obtain ⟨p, k, rfl⟩ : ∃ (p : Fin 5000) (k : Fin 128), i = ix2 p k := ⟨i 0, i 1, eq_ix2 i⟩
    rw [mulf_apply, shapeCast_self, broadcastTo_a1_an_apply]
    rfl
  refine (matmul_zero_eq_matProd _ rfl _ _).trans ?_
  exact congrArg (fun X => matProd (M := 5000) X x2) hs

/-- Where each window's block sits, for every point of the grid. -/
theorem idx_facts : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole product. -/
theorem flushed_eq (c : Dev nD) (t : Fin cfg0.N) :
    (dat0 V c).flushed 3 t
      = ((cfg0.win 3).blk t).view.read (Elt Ideal) (G (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz,
    View.ld_unit_zero (S := S128x64) hz]
  obtain ⟨ht, e00, e01, e10, e11, e20, e21, e30, e31⟩ := idx_facts t
  have h0 : ∀ y : S5000x128.Idx, ((cfg0.win 0).blk t).view.emb y = rowIx t.val ht y := fun y => by
    funext a; apply Fin.ext
    match a with
    | ⟨0, _⟩ => show win0_0.index t (0 : Fin 2) * 5000 + 1 * (y 0).val = 5000 * t.val + (y 0).val; omega
    | ⟨1, _⟩ => show win0_0.index t (1 : Fin 2) * 128 + 1 * (y 1).val = (y 1).val; omega
  have h1 : ∀ y : S5000x1.Idx, ((cfg0.win 1).blk t).view.emb y = rowIx t.val ht y := fun y => by
    funext a; apply Fin.ext
    match a with
    | ⟨0, _⟩ => show win0_1.index t (0 : Fin 2) * 5000 + 1 * (y 0).val = 5000 * t.val + (y 0).val; omega
    | ⟨1, _⟩ => show win0_1.index t (1 : Fin 2) * 1 + 1 * (y 1).val = (y 1).val; omega
  have h2 : ∀ y : S128x64.Idx, ((cfg0.win 2).blk t).view.emb y = y := fun y => by
    funext a; apply Fin.ext
    match a with
    | ⟨0, _⟩ => show win0_2.index t (0 : Fin 2) * 128 + 1 * (y 0).val = (y 0).val; omega
    | ⟨1, _⟩ => show win0_2.index t (1 : Fin 2) * 64 + 1 * (y 1).val = (y 1).val; omega
  have h3 : ∀ y : S5000x64.Idx, ((cfg0.win 3).blk t).view.emb y = rowIx t.val ht y := fun y => by
    funext a; apply Fin.ext
    match a with
    | ⟨0, _⟩ => show win0_3.index t (0 : Fin 2) * 5000 + 1 * (y 0).val = 5000 * t.val + (y 0).val; omega
    | ⟨1, _⟩ => show win0_3.index t (1 : Fin 2) * 64 + 1 * (y 1).val = (y 1).val; omega
  have b0 : (iblk0 V c 0 t : S5000x128.Idx → EReal) = fun y => V c main_arg0 (rowIx t.val ht y) :=
    funext fun y => (show V c main_arg0 (((cfg0.win 0).blk t).view.emb y) = _ from by rw [h0])
  have b1 : (iblk0 V c 1 t : S5000x1.Idx → EReal) = fun y => V c main_v13 (rowIx t.val ht y) :=
    funext fun y => (show V c main_v13 (((cfg0.win 1).blk t).view.emb y) = _ from by rw [h1])
  have b2 : (iblk0 V c 2 t : S128x64.Idx → EReal) = V c main_arg3 :=
    funext fun y => (show V c main_arg3 (((cfg0.win 2).blk t).view.emb y) = _ from by rw [h2])
  funext j
  show k0_pay1 (iblk0 V c 0 t) (iblk0 V c 1 t) (iblk0 V c 2 t) j
    = G (V c main_arg0) (V c main_v13) (V c main_arg3) (((cfg0.win 3).blk t).view.emb j)
  rw [h3 j]
  unfold G
  rw [matProd_rows]
  refine (congrFun (body _ _ _) j).trans ?_
  refine congrFun (congrArg₂ (fun X W => matProd (M := 5000) X W) ?_ b2) j
  funext y
  rw [scaleRows_rows]
  exact congrFun (congrArg₂ (fun X s => scaleRows (M := 5000) X s) b0 b1) y

/-- An index of the output is in point `t`'s block iff its row is among that block's rows. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v22).slice (win0_3.rect t)).set ↔ _
  rw [View.set_slice_whole, Rect.mem_set_unit]
  exact Iff.rfl

/-- Row `r` is written back by the point `r / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, e30, e31⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [e31]
    omega

/-- The output array after the launch: the scaled rows of the first operand times the weights. -/
theorem final (c : Dev nD) :
    (dat0 V c).arrAt 3 cfg0.N = G (V c main_arg0) (V c main_v13) (V c main_arg3) :=
  (dat0 V c).arrAt_eq_of_cover 3 _ (fun t _ => flushed_eq V c t) cover

end Cert.KernelIdeal.Region0

end
-- ==== Proof.Bodies.lean ====
/-
  The pointwise pieces of the kernel bodies, for any block height `M` and width `K`.

  * A block times a column broadcast along its rows is the block with row `r` scaled by the column's entry `r`.
  * That, plus a bias row broadcast down the rows, then the maximum with the zero splat, is
    `max (g(r,k) · d(r) + b(k)) 0` entry by entry.
  * A block plus a bias row broadcast down the rows is `x(r,k) + b(k)`.
-/
import proofs.«106296_j65111704207521_2_alg».proof.Proof.Spec
import proofs.«106296_j65111704207521_2_alg».proof.Proof.LibLayout
import Idealize.ShloMosaic.PureOps.Ideal
import Idealize.ShloMosaic.Lib.Pipeline.Value
import Idealize.ShloMosaic.Lib.ValueIdx
import Idealize.ShloMosaic.Lib.ValueLayout

noncomputable section

namespace Cert.Bridge.Bodies

open Idealize.ShloMosaic Idealize.ShloMosaic.ValueIdx Cert.Bridge.Spec Cert.Bridge.Layout Cert.Dense

variable {M K : ℕ}

theorem scale_eq (x0 : FVec Ideal ⟨2, ![M, K]⟩ .f32) (x1 : FVec Ideal ⟨2, ![M, 1]⟩ .f32)
    (hb : (⟨2, ![M, 1]⟩ : Shape).Broadcasts ⟨2, ![M, K]⟩) :
    mulf x0 (broadcastTo ⟨2, ![M, K]⟩ x1 hb) = scaleRows x0 x1 := by
  funext i
  obtain ⟨p, k, rfl⟩ : ∃ (p : Fin M) (k : Fin K), i = ix2 p k := ⟨i 0, i 1, eq_ix2 i⟩
  rw [mulf_apply, broadcastTo_a1_an_apply]
  rfl

theorem nbr_eq (x0 : FVec Ideal ⟨2, ![M, K]⟩ .f32) (x1 : FVec Ideal ⟨2, ![M, 1]⟩ .f32)
    (x2 : FVec Ideal ⟨2, ![1, K]⟩ .f32)
    (hb1 : (⟨2, ![M, 1]⟩ : Shape).Broadcasts ⟨2, ![M, K]⟩) (hb2 : (⟨2, ![1, K]⟩ : Shape).Broadcasts ⟨2, ![M, K]⟩) :
    maximumf (addf (mulf x0 (broadcastTo ⟨2, ![M, K]⟩ x1 hb1)) (broadcastTo ⟨2, ![M, K]⟩ x2 hb2))
        (broadcast ⟨2, ![M, K]⟩ (Scalar.ofBits (F := Ideal) .f32 0x00000000#32))
      = normBiasRelu x0 x1 x2 := by
  funext i
  obtain ⟨p, k, rfl⟩ : ∃ (p : Fin M) (k : Fin K), i = ix2 p k := ⟨i 0, i 1, eq_ix2 i⟩
  rw [maximumf_apply, addf_apply, mulf_apply, broadcastTo_a1_an_apply, broadcastTo_1b_ab_apply, broadcast_apply]
  rfl

theorem addRow_eq (x0 : FVec Ideal ⟨2, ![M, K]⟩ .f32) (x2 : FVec Ideal ⟨2, ![1, K]⟩ .f32)
    (hb2 : (⟨2, ![1, K]⟩ : Shape).Broadcasts ⟨2, ![M, K]⟩) :
    addf x0 (broadcastTo ⟨2, ![M, K]⟩ x2 hb2) = addRow x0 x2 := by
  funext i
  obtain ⟨p, k, rfl⟩ : ∃ (p : Fin M) (k : Fin K), i = ix2 p k := ⟨i 0, i 1, eq_ix2 i⟩
  rw [addf_apply, broadcastTo_1b_ab_apply]
  rfl

end Cert.Bridge.Bodies

end
-- ==== Proof.Region1.lean ====
/-
  The second launch: a layer's output and the next layer's pre-aggregation rows, in one pass over the node rows.

  At block `t` the body loads rows `5000 t …` of the aggregated sums `g`, of the in-degree norm column `d` and of
  the out-degree norm column `s`, and the bias row `b` and the weight matrix `W` whole. It stores
  `h(r,k) = max (g(r,k) · d(r) + b(k)) 0` into the first output and the product of the rows `h(r,·) · s(r)` with `W`
  into the second. Both depend on row `r` only through row `r` of the row-indexed operands, so each output array ends
  as the same formula over all rows.
-/
import proofs.«106296_j65111704207521_2_alg».proof.Proof.Gen.KernelIdeal.Frame
import proofs.«106296_j65111704207521_2_alg».proof.Proof.Spec
import proofs.«106296_j65111704207521_2_alg».proof.Proof.LibDense
import proofs.«106296_j65111704207521_2_alg».proof.Proof.LibLayout
import Idealize.ShloMosaic.PureOps.Ideal
import Idealize.ShloMosaic.Lib.Pipeline.Value
import Idealize.ShloMosaic.Lib.ValueIdx
import proofs.«106296_j65111704207521_2_alg».proof.Proof.Bodies
import Idealize.ShloMosaic.Lib.ValueLayout
set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Spec Cert.Bridge.Layout Cert.Dense Cert.Bridge.Bodies
open scoped BigOperators

variable (V : (c : Dev nD) → (b : Ref sig .tc) → Buf (Elt Ideal) ((c : Thread nD τ).loc b))

/-- The layer output: normalise, add the bias, positive part. -/
def H (g : S100000x64.Idx → EReal) (d : S100000x1.Idx → EReal) (b : S1x64.Idx → EReal) : S100000x64.Idx → EReal :=
  normBiasRelu (M := 100000) g d b

/-- The next layer's pre-aggregation rows: the layer output scaled by the out-degree norm, times the weights. -/
def L (g : S100000x64.Idx → EReal) (d : S100000x1.Idx → EReal) (b : S1x64.Idx → EReal) (s : S100000x1.Idx → EReal)
    (W : S64x64.Idx → EReal) : S100000x64.Idx → EReal :=
  matProd (M := 100000) (scaleRows (H g d b) s) W

theorem body_h (v0 : Vec Ideal S5000x64 .f32) (v2 : Vec Ideal S5000x1 .f32) (v6 : Vec Ideal S1x64 .f32) :
    k1_pay1 v0 v2 v6 = normBiasRelu (M := 5000) v0 v2 v6 := by
  unfold k1_pay1
  simp only [shapeCast_self]
  exact nbr_eq _ _ _ _ _

theorem body_l (v0 : Vec Ideal S5000x64 .f32) (v2 : Vec Ideal S5000x1 .f32) (v6 : Vec Ideal S1x64 .f32)
    (v13 : Vec Ideal S5000x1 .f32) (v18 : Vec Ideal S64x64 .f32) :
    k1_pay2 v0 v2 v6 v13 v18 = matProd (M := 5000) (scaleRows (normBiasRelu (M := 5000) v0 v2 v6) v13) v18 := by
  unfold k1_pay2
  refine (matmul_zero_eq_matProd _ rfl _ _).trans ?_
  refine congrArg (fun X => matProd (M := 5000) X v18) ?_
  rw [body_h]
  simp only [shapeCast_self]
  exact scale_eq _ _ _

theorem hz : (![0, 0] : Fin 2 → Nat) = fun _ => 0 := funext fun a => by fin_cases a <;> rfl

/-- Where each window's block sits, for every point of the grid: a row-indexed operand's block `t` starts at row
    `5000 t`, a small operand is taken whole. -/
theorem idx_facts : ∀ t : Fin cfg1.N, t.val < 20
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0 :=
  (by decide +kernel : ∀ t : Fin grid1.N, _)

theorem emb_0 (t : Fin cfg1.N) (y : S5000x64.Idx) :
    ((cfg1.win 0).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win1_0.index t (0 : Fin 2) * 5000 + 1 * (y 0).val = 5000 * t.val + (y 0).val; omega
  | ⟨1, _⟩ => show win1_0.index t (1 : Fin 2) * 64 + 1 * (y 1).val = (y 1).val; omega

theorem blk_0 (c : Dev nD) (t : Fin cfg1.N) :
    (iblk1 V c 0 t : S5000x64.Idx → EReal) = fun y => V c main_v32 (rowIx t.val (idx_facts t).1 y) :=
  funext fun y => (show V c main_v32 (((cfg1.win 0).blk t).view.emb y) = _ from by rw [emb_0])

theorem emb_1 (t : Fin cfg1.N) (y : S5000x1.Idx) :
    ((cfg1.win 1).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win1_1.index t (0 : Fin 2) * 5000 + 1 * (y 0).val = 5000 * t.val + (y 0).val; omega
  | ⟨1, _⟩ => show win1_1.index t (1 : Fin 2) * 1 + 1 * (y 1).val = (y 1).val; omega

theorem blk_1 (c : Dev nD) (t : Fin cfg1.N) :
    (iblk1 V c 1 t : S5000x1.Idx → EReal) = fun y => V c main_v16 (rowIx t.val (idx_facts t).1 y) :=
  funext fun y => (show V c main_v16 (((cfg1.win 1).blk t).view.emb y) = _ from by rw [emb_1])

theorem emb_2 (t : Fin cfg1.N) (y : S1x64.Idx) : ((cfg1.win 2).blk t).view.emb y = y := by
  obtain ⟨ht, e0a, e0b, e1a, e1b, e2a, e2b, e3a, e3b, e4a, e4b, e5a, e5b, e6a, e6b⟩ := idx_facts t
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem blk_2 (c : Dev nD) (t : Fin cfg1.N) : (iblk1 V c 2 t : S1x64.Idx → EReal) = V c main_v17 :=
  funext fun y => (show V c main_v17 (((cfg1.win 2).blk t).view.emb y) = _ from by rw [emb_2])

theorem emb_3 (t : Fin cfg1.N) (y : S5000x1.Idx) :
    ((cfg1.win 3).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win1_3.index t (0 : Fin 2) * 5000 + 1 * (y 0).val = 5000 * t.val + (y 0).val; omega
  | ⟨1, _⟩ => show win1_3.index t (1 : Fin 2) * 1 + 1 * (y 1).val = (y 1).val; omega

theorem blk_3 (c : Dev nD) (t : Fin cfg1.N) :
    (iblk1 V c 3 t : S5000x1.Idx → EReal) = fun y => V c main_v13 (rowIx t.val (idx_facts t).1 y) :=
  funext fun y => (show V c main_v13 (((cfg1.win 3).blk t).view.emb y) = _ from by rw [emb_3])

theorem emb_4 (t : Fin cfg1.N) (y : S64x64.Idx) : ((cfg1.win 4).blk t).view.emb y = y := by
  obtain ⟨ht, e0a, e0b, e1a, e1b, e2a, e2b, e3a, e3b, e4a, e4b, e5a, e5b, e6a, e6b⟩ := idx_facts t
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem blk_4 (c : Dev nD) (t : Fin cfg1.N) : (iblk1 V c 4 t : S64x64.Idx → EReal) = V c main_arg5 :=
  funext fun y => (show V c main_arg5 (((cfg1.win 4).blk t).view.emb y) = _ from by rw [emb_4])

theorem emb_5 (t : Fin cfg1.N) (y : S5000x64.Idx) :
    ((cfg1.win 5).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win1_5.index t (0 : Fin 2) * 5000 + 1 * (y 0).val = 5000 * t.val + (y 0).val; omega
  | ⟨1, _⟩ => show win1_5.index t (1 : Fin 2) * 64 + 1 * (y 1).val = (y 1).val; omega

theorem emb_6 (t : Fin cfg1.N) (y : S5000x64.Idx) :
    ((cfg1.win 6).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win1_6.index t (0 : Fin 2) * 5000 + 1 * (y 0).val = 5000 * t.val + (y 0).val; omega
  | ⟨1, _⟩ => show win1_6.index t (1 : Fin 2) * 64 + 1 * (y 1).val = (y 1).val; omega

/-- An index of output 5 is in point `t`'s block iff its row is among that block's rows. -/
theorem mem_blk_5 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v33_0).slice (win1_5.rect t)).set ↔ _
  rw [View.set_slice_whole, Rect.mem_set_unit]
  exact Iff.rfl

/-- Row `r` of output 5 is written back by the point `r / 5000`. -/
theorem cover_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  have hf := idx_facts ⟨(i 0).val / 5000, hlt⟩
  have ea : win1_5.index ⟨(i 0).val / 5000, hlt⟩ (0 : Fin 2) = (i 0).val / 5000 := by
    obtain ⟨ht, e0a, e0b, e1a, e1b, e2a, e2b, e3a, e3b, e4a, e4b, e5a, e5b, e6a, e6b⟩ := hf
    exact e5a
  have eb : win1_5.index ⟨(i 0).val / 5000, hlt⟩ (1 : Fin 2) = 0 := by
    obtain ⟨ht, e0a, e0b, e1a, e1b, e2a, e2b, e3a, e3b, e4a, e4b, e5a, e5b, e6a, e6b⟩ := hf
    exact e5b
  refine ⟨⟨(i 0).val / 5000, hlt⟩, flush1_5 _, ?_⟩
  rw [mem_blk_5]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [ea]
    omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [eb]
    omega

/-- An index of output 6 is in point `t`'s block iff its row is among that block's rows. -/
theorem mem_blk_6 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v33_1).slice (win1_6.rect t)).set ↔ _
  rw [View.set_slice_whole, Rect.mem_set_unit]
  exact Iff.rfl

/-- Row `r` of output 6 is written back by the point `r / 5000`. -/
theorem cover_6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  have hf := idx_facts ⟨(i 0).val / 5000, hlt⟩
  have ea : win1_6.index ⟨(i 0).val / 5000, hlt⟩ (0 : Fin 2) = (i 0).val / 5000 := by
    obtain ⟨ht, e0a, e0b, e1a, e1b, e2a, e2b, e3a, e3b, e4a, e4b, e5a, e5b, e6a, e6b⟩ := hf
    exact e6a
  have eb : win1_6.index ⟨(i 0).val / 5000, hlt⟩ (1 : Fin 2) = 0 := by
    obtain ⟨ht, e0a, e0b, e1a, e1b, e2a, e2b, e3a, e3b, e4a, e4b, e5a, e5b, e6a, e6b⟩ := hf
    exact e6b
  refine ⟨⟨(i 0).val / 5000, hlt⟩, flush1_6 _, ?_⟩
  rw [mem_blk_6]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [ea]
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [eb]
    omega

/-- What point `t` writes back to the first output is block `t` of the layer output over all rows. -/
theorem flushed_5 (c : Dev nD) (t : Fin cfg1.N) :
    (dat1 V c).flushed 5 t
      = ((cfg1.win 5).blk t).view.read (Elt Ideal) (H (V c main_v32) (V c main_v16) (V c main_v17)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz]
  funext j
  show k1_pay1 (iblk1 V c 0 t) (iblk1 V c 1 t) (iblk1 V c 2 t) j
    = H (V c main_v32) (V c main_v16) (V c main_v17) (((cfg1.win 5).blk t).view.emb j)
  rw [emb_5 t j]
  unfold H
  rw [normBiasRelu_rows, body_h, blk_0 V c t, blk_1 V c t, blk_2 V c t]

/-- What point `t` writes back to the second output is block `t` of the pre-aggregation rows over all rows. -/
theorem flushed_6 (c : Dev nD) (t : Fin cfg1.N) :
    (dat1 V c).flushed 6 t
      = ((cfg1.win 6).blk t).view.read (Elt Ideal)
          (L (V c main_v32) (V c main_v16) (V c main_v17) (V c main_v13) (V c main_arg5)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S1x64) hz, View.ld_unit_zero (S := S64x64) hz]
  funext j
  show k1_pay2 (iblk1 V c 0 t) (iblk1 V c 1 t) (iblk1 V c 2 t) (iblk1 V c 3 t) (iblk1 V c 4 t) j
    = L (V c main_v32) (V c main_v16) (V c main_v17) (V c main_v13) (V c main_arg5) (((cfg1.win 6).blk t).view.emb j)
  rw [emb_6 t j]
  unfold L H
  rw [matProd_rows, body_l, blk_0 V c t, blk_1 V c t, blk_2 V c t, blk_3 V c t, blk_4 V c t]
  refine congrFun (congrArg (fun X => matProd (M := 5000) X (V c main_arg5)) ?_) j
  funext y
  rw [scaleRows_rows]
  refine congrFun (congrArg (fun X => scaleRows (M := 5000) X fun y => V c main_v13 (rowIx t.val (idx_facts t).1 y)) ?_) y
  funext z
  rw [normBiasRelu_rows]

theorem final_5 (c : Dev nD) :
    (dat1 V c).arrAt 5 cfg1.N = H (V c main_v32) (V c main_v16) (V c main_v17) :=
  (dat1 V c).arrAt_eq_of_cover 5 _ (fun t _ => flushed_5 V c t) cover_5

theorem final_6 (c : Dev nD) :
    (dat1 V c).arrAt 6 cfg1.N = L (V c main_v32) (V c main_v16) (V c main_v17) (V c main_v13) (V c main_arg5) :=
  (dat1 V c).arrAt_eq_of_cover 6 _ (fun t _ => flushed_6 V c t) cover_6

end Cert.KernelIdeal.Region1

end
-- ==== Proof.Region2.lean ====
/-
  The third launch: the second layer's output, consumed at once by the two halves of the last weight matrix.

  At block `t` the body loads rows `5000 t …` of the second aggregated sums `g`, of the in-degree norm column `d`
  and of the first layer's output `h1`, and the bias row `b` and the two 64×64 halves `WA`, `WB` whole. It forms
  `h2(r,k) = max (g(r,k) · d(r) + b(k)) 0` and stores `∑ k, h1(r,k)·WA(k,c) + ∑ k, h2(r,k)·WB(k,c)`. Row `r` of the
  result depends only on row `r` of the row-indexed operands, so the output array ends as that formula over all rows.
-/
import proofs.«106296_j65111704207521_2_alg».proof.Proof.Gen.KernelIdeal.Frame
import proofs.«106296_j65111704207521_2_alg».proof.Proof.Spec
import proofs.«106296_j65111704207521_2_alg».proof.Proof.LibDense
import proofs.«106296_j65111704207521_2_alg».proof.Proof.LibLayout
import Idealize.ShloMosaic.PureOps.Ideal
import Idealize.ShloMosaic.Lib.Pipeline.Value
import Idealize.ShloMosaic.Lib.ValueIdx
import proofs.«106296_j65111704207521_2_alg».proof.Proof.Bodies
import Idealize.ShloMosaic.Lib.ValueLayout
set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Spec Cert.Bridge.Layout Cert.Dense Cert.Bridge.Bodies
open scoped BigOperators

variable (V : (c : Dev nD) → (b : Ref sig .tc) → Buf (Elt Ideal) ((c : Thread nD τ).loc b))

/-- The sum of two products, entry by entry. -/
def twoProd {M : ℕ} (A : (⟨2, ![M, 64]⟩ : Shape).Idx → EReal) (WA : S64x64.Idx → EReal)
    (B : (⟨2, ![M, 64]⟩ : Shape).Idx → EReal) (WB : S64x64.Idx → EReal) : (⟨2, ![M, 64]⟩ : Shape).Idx → EReal :=
  fun i => matProd (M := M) A WA i + matProd (M := M) B WB i

/-- The whole output: first layer's output times `WA` plus second layer's output times `WB`. -/
def Z (g : S100000x64.Idx → EReal) (d : S100000x1.Idx → EReal) (b : S1x64.Idx → EReal) (h1 : S100000x64.Idx → EReal)
    (WA WB : S64x64.Idx → EReal) : S100000x64.Idx → EReal :=
  twoProd (M := 100000) h1 WA (normBiasRelu (M := 100000) g d b) WB

theorem body_z (v0 : Vec Ideal S5000x64 .f32) (v2 : Vec Ideal S5000x1 .f32) (v6 : Vec Ideal S1x64 .f32)
    (v12 : Vec Ideal S5000x64 .f32) (v16 v19 : Vec Ideal S64x64 .f32) :
    k2_pay1 v0 v2 v6 v12 v16 v19 = twoProd (M := 5000) v12 v16 (normBiasRelu (M := 5000) v0 v2 v6) v19 := by
  unfold k2_pay1
  simp only [shapeCast_self]
  funext j
  rw [addf_apply]
  unfold twoProd
  refine congrArg₂ (· + ·) (congrFun (matmul_zero_eq_matProd _ rfl _ _) j)
    ((congrFun (matmul_zero_eq_matProd _ rfl _ _) j).trans ?_)
  refine congrFun (congrArg (fun X => matProd (M := 5000) X v19) ?_) j
  exact nbr_eq _ _ _ _ _

theorem hz : (![0, 0] : Fin 2 → Nat) = fun _ => 0 := funext fun a => by fin_cases a <;> rfl

/-- Where each window's block sits, for every point of the grid: a row-indexed operand's block `t` starts at row
    `5000 t`, a small operand is taken whole. -/
theorem idx_facts : ∀ t : Fin cfg2.N, t.val < 20
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

theorem emb_0 (t : Fin cfg2.N) (y : S5000x64.Idx) :
    ((cfg2.win 0).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win2_0.index t (0 : Fin 2) * 5000 + 1 * (y 0).val = 5000 * t.val + (y 0).val; omega
  | ⟨1, _⟩ => show win2_0.index t (1 : Fin 2) * 64 + 1 * (y 1).val = (y 1).val; omega

theorem blk_0 (c : Dev nD) (t : Fin cfg2.N) :
    (iblk2 V c 0 t : S5000x64.Idx → EReal) = fun y => V c main_v43 (rowIx t.val (idx_facts t).1 y) :=
  funext fun y => (show V c main_v43 (((cfg2.win 0).blk t).view.emb y) = _ from by rw [emb_0])

theorem emb_1 (t : Fin cfg2.N) (y : S5000x1.Idx) :
    ((cfg2.win 1).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win2_1.index t (0 : Fin 2) * 5000 + 1 * (y 0).val = 5000 * t.val + (y 0).val; omega
  | ⟨1, _⟩ => show win2_1.index t (1 : Fin 2) * 1 + 1 * (y 1).val = (y 1).val; omega

theorem blk_1 (c : Dev nD) (t : Fin cfg2.N) :
    (iblk2 V c 1 t : S5000x1.Idx → EReal) = fun y => V c main_v16 (rowIx t.val (idx_facts t).1 y) :=
  funext fun y => (show V c main_v16 (((cfg2.win 1).blk t).view.emb y) = _ from by rw [emb_1])

theorem emb_2 (t : Fin cfg2.N) (y : S1x64.Idx) : ((cfg2.win 2).blk t).view.emb y = y := by
  obtain ⟨ht, e0a, e0b, e1a, e1b, e2a, e2b, e3a, e3b, e4a, e4b, e5a, e5b, e6a, e6b⟩ := idx_facts t
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

theorem blk_2 (c : Dev nD) (t : Fin cfg2.N) : (iblk2 V c 2 t : S1x64.Idx → EReal) = V c main_v18 :=
  funext fun y => (show V c main_v18 (((cfg2.win 2).blk t).view.emb y) = _ from by rw [emb_2])

theorem emb_3 (t : Fin cfg2.N) (y : S5000x64.Idx) :
    ((cfg2.win 3).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win2_3.index t (0 : Fin 2) * 5000 + 1 * (y 0).val = 5000 * t.val + (y 0).val; omega
  | ⟨1, _⟩ => show win2_3.index t (1 : Fin 2) * 64 + 1 * (y 1).val = (y 1).val; omega

theorem blk_3 (c : Dev nD) (t : Fin cfg2.N) :
    (iblk2 V c 3 t : S5000x64.Idx → EReal) = fun y => V c main_v33_0 (rowIx t.val (idx_facts t).1 y) :=
  funext fun y => (show V c main_v33_0 (((cfg2.win 3).blk t).view.emb y) = _ from by rw [emb_3])

theorem emb_4 (t : Fin cfg2.N) (y : S64x64.Idx) : ((cfg2.win 4).blk t).view.emb y = y := by
  obtain ⟨ht, e0a, e0b, e1a, e1b, e2a, e2b, e3a, e3b, e4a, e4b, e5a, e5b, e6a, e6b⟩ := idx_facts t
  funext a; apply Fin.ext
  match a with
  | ⟨0, _⟩ => show win2_4.index t (0 : Fin 2) * 64 + 1 * (y 0).val = (y 0).val; omega
  | ⟨1, _⟩ => show win2_4.index t (1 : Fin 2) * 64 + 1 * (y 1).val = (y 1).val; omega

theorem blk_4 (c : Dev nD) (t : Fin cfg2.N) : (iblk2 V c 4 t : S64x64.Idx → EReal) = V c main_v20 :=
  funext fun y => (show V c main_v20 (((cfg2.win 4).blk t).view.emb y) = _ from by rw [emb_4])

theorem emb_5 (t : Fin cfg2.N) (y : S64x64.Idx) : ((cfg2.win 5).blk t).view.emb y = y := by
  obtain ⟨ht, e0a, e0b, e1a, e1b, e2a, e2b, e3a, e3b, e4a, e4b, e5a, e5b, e6a, e6b⟩ := idx_facts t
  funext a; apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega

theorem blk_5 (c : Dev nD) (t : Fin cfg2.N) : (iblk2 V c 5 t : S64x64.Idx → EReal) = V c main_v21 :=
  funext fun y => (show V c main_v21 (((cfg2.win 5).blk t).view.emb y) = _ from by rw [emb_5])

theorem emb_6 (t : Fin cfg2.N) (y : S5000x64.Idx) :
    ((cfg2.win 6).blk t).view.emb y = rowIx t.val (idx_facts t).1 y := by
  obtain ⟨ht, e0a, e0b, e1a, e1b, e2a, e2b, e3a, e3b, e4a, e4b, e5a, e5b, e6a, e6b⟩ := idx_facts t
  funext a; apply Fin.ext
  match a with
  | ⟨0, _⟩ => show win2_6.index t (0 : Fin 2) * 5000 + 1 * (y 0).val = 5000 * t.val + (y 0).val; omega
  | ⟨1, _⟩ => show win2_6.index t (1 : Fin 2) * 64 + 1 * (y 1).val = (y 1).val; omega

/-- An index of output 6 is in point `t`'s block iff its row is among that block's rows. -/
theorem mem_blk_6 (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v44).slice (win2_6.rect t)).set ↔ _
  rw [View.set_slice_whole, Rect.mem_set_unit]
  exact Iff.rfl

/-- Row `r` of output 6 is written back by the point `r / 5000`. -/
theorem cover_6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have hlt : (i 0).val / 5000 < cfg2.N := by rw [hN]; omega
  have hf := idx_facts ⟨(i 0).val / 5000, hlt⟩
  have ea : win2_6.index ⟨(i 0).val / 5000, hlt⟩ (0 : Fin 2) = (i 0).val / 5000 := by
    obtain ⟨ht, e0a, e0b, e1a, e1b, e2a, e2b, e3a, e3b, e4a, e4b, e5a, e5b, e6a, e6b⟩ := hf
    exact e6a
  have eb : win2_6.index ⟨(i 0).val / 5000, hlt⟩ (1 : Fin 2) = 0 := by
    obtain ⟨ht, e0a, e0b, e1a, e1b, e2a, e2b, e3a, e3b, e4a, e4b, e5a, e5b, e6a, e6b⟩ := hf
    exact e6b
  refine ⟨⟨(i 0).val / 5000, hlt⟩, flush2_6 _, ?_⟩
  rw [mem_blk_6]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [ea]
    omega
  | ⟨1, _⟩ =>
    show win2_6.index ⟨(i 0).val / 5000, hlt⟩ (1 : Fin 2) * 64 ≤ (i 1).val
      ∧ (i 1).val < win2_6.index ⟨(i 0).val / 5000, hlt⟩ (1 : Fin 2) * 64 + 64
    rw [eb]
    omega

theorem flushed_6 (c : Dev nD) (t : Fin cfg2.N) :
    (dat2 V c).flushed 6 t
      = ((cfg2.win 6).blk t).view.read (Elt Ideal)
          (Z (V c main_v43) (V c main_v16) (V c main_v18) (V c main_v33_0) (V c main_v20) (V c main_v21)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S1x64) hz, View.ld_unit_zero (S := S64x64) hz]
  funext j
  show k2_pay1 (iblk2 V c 0 t) (iblk2 V c 1 t) (iblk2 V c 2 t) (iblk2 V c 3 t) (iblk2 V c 4 t) (iblk2 V c 5 t) j
    = Z (V c main_v43) (V c main_v16) (V c main_v18) (V c main_v33_0) (V c main_v20) (V c main_v21)
        (((cfg2.win 6).blk t).view.emb j)
  rw [emb_6 t j, body_z, blk_0 V c t, blk_1 V c t, blk_2 V c t, blk_3 V c t, blk_4 V c t, blk_5 V c t]
  unfold Z twoProd
  rw [matProd_rows, matProd_rows]
  refine congrArg (matProd (M := 5000) (fun y => V c main_v33_0 (rowIx t.val (idx_facts t).1 y)) (V c main_v20) j + ·) ?_
  refine congrFun (congrArg (fun X => matProd (M := 5000) X (V c main_v21)) ?_) j
  funext z
  rw [normBiasRelu_rows]

theorem final_6 (c : Dev nD) :
    (dat2 V c).arrAt 6 cfg2.N
      = Z (V c main_v43) (V c main_v16) (V c main_v18) (V c main_v33_0) (V c main_v20) (V c main_v21) :=
  (dat2 V c).arrAt_eq_of_cover 6 _ (fun t _ => flushed_6 V c t) cover_6

end Cert.KernelIdeal.Region2

end
-- ==== Proof.Region3.lean ====
/-
  The fourth launch: the output bias added to every row of the last aggregated sums.

  At block `t` the body loads rows `5000 t …` of its first operand and the bias row whole and stores
  `x(r,c) + b(c)`; the output array ends as that formula over all rows.
-/
import proofs.«106296_j65111704207521_2_alg».proof.Proof.Gen.KernelIdeal.Frame
import proofs.«106296_j65111704207521_2_alg».proof.Proof.Spec
import proofs.«106296_j65111704207521_2_alg».proof.Proof.LibDense
import proofs.«106296_j65111704207521_2_alg».proof.Proof.LibLayout
import Idealize.ShloMosaic.PureOps.Ideal
import Idealize.ShloMosaic.Lib.Pipeline.Value
import Idealize.ShloMosaic.Lib.ValueIdx
import proofs.«106296_j65111704207521_2_alg».proof.Proof.Bodies
import Idealize.ShloMosaic.Lib.ValueLayout
set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Spec Cert.Bridge.Layout Cert.Dense Cert.Bridge.Bodies
open scoped BigOperators

variable (V : (c : Dev nD) → (b : Ref sig .tc) → Buf (Elt Ideal) ((c : Thread nD τ).loc b))

theorem body_o (v0 : Vec Ideal S5000x64 .f32) (v2 : Vec Ideal S1x64 .f32) :
    k3_pay1 v0 v2 = addRow (M := 5000) v0 v2 := by
  unfold k3_pay1
  simp only [shapeCast_self]
  exact addRow_eq _ _ _

theorem hz : (![0, 0] : Fin 2 → Nat) = fun _ => 0 := funext fun a => by fin_cases a <;> rfl

/-- Where each window's block sits, for every point of the grid: a row-indexed operand's block `t` starts at row
    `5000 t`, a small operand is taken whole. -/
theorem idx_facts : ∀ t : Fin cfg3.N, t.val < 20
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem emb_0 (t : Fin cfg3.N) (y : S5000x64.Idx) :
    ((cfg3.win 0).blk t).view.emb y = rowIx t.val (idx_facts t).1 y := by
  obtain ⟨ht, e0a, e0b, e1a, e1b, e2a, e2b⟩ := idx_facts t
  funext a; apply Fin.ext
  match a with
  | ⟨0, _⟩ => show win3_0.index t (0 : Fin 2) * 5000 + 1 * (y 0).val = 5000 * t.val + (y 0).val; omega
  | ⟨1, _⟩ => show win3_0.index t (1 : Fin 2) * 64 + 1 * (y 1).val = (y 1).val; omega

theorem blk_0 (c : Dev nD) (t : Fin cfg3.N) :
    (iblk3 V c 0 t : S5000x64.Idx → EReal) = fun y => V c main_v54 (rowIx t.val (idx_facts t).1 y) :=
  funext fun y => (show V c main_v54 (((cfg3.win 0).blk t).view.emb y) = _ from by rw [emb_0])

theorem emb_1 (t : Fin cfg3.N) (y : S1x64.Idx) : ((cfg3.win 1).blk t).view.emb y = y := by
  obtain ⟨ht, e0a, e0b, e1a, e1b, e2a, e2b⟩ := idx_facts t
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

theorem blk_1 (c : Dev nD) (t : Fin cfg3.N) : (iblk3 V c 1 t : S1x64.Idx → EReal) = V c main_v19 :=
  funext fun y => (show V c main_v19 (((cfg3.win 1).blk t).view.emb y) = _ from by rw [emb_1])

theorem emb_2 (t : Fin cfg3.N) (y : S5000x64.Idx) :
    ((cfg3.win 2).blk t).view.emb y = rowIx t.val (idx_facts t).1 y := by
  obtain ⟨ht, e0a, e0b, e1a, e1b, e2a, e2b⟩ := idx_facts t
  funext a; apply Fin.ext
  match a with
  | ⟨0, _⟩ => show win3_2.index t (0 : Fin 2) * 5000 + 1 * (y 0).val = 5000 * t.val + (y 0).val; omega
  | ⟨1, _⟩ => show win3_2.index t (1 : Fin 2) * 64 + 1 * (y 1).val = (y 1).val; omega

/-- An index of output 2 is in point `t`'s block iff its row is among that block's rows. -/
theorem mem_blk_2 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v55).slice (win3_2.rect t)).set ↔ _
  rw [View.set_slice_whole, Rect.mem_set_unit]
  exact Iff.rfl

/-- Row `r` of output 2 is written back by the point `r / 5000`. -/
theorem cover_2 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have hlt : (i 0).val / 5000 < cfg3.N := by rw [hN]; omega
  have hf := idx_facts ⟨(i 0).val / 5000, hlt⟩
  have ea : win3_2.index ⟨(i 0).val / 5000, hlt⟩ (0 : Fin 2) = (i 0).val / 5000 := by
    obtain ⟨ht, e0a, e0b, e1a, e1b, e2a, e2b⟩ := hf
    exact e2a
  have eb : win3_2.index ⟨(i 0).val / 5000, hlt⟩ (1 : Fin 2) = 0 := by
    obtain ⟨ht, e0a, e0b, e1a, e1b, e2a, e2b⟩ := hf
    exact e2b
  refine ⟨⟨(i 0).val / 5000, hlt⟩, flush3_2 _, ?_⟩
  rw [mem_blk_2]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [ea]
    omega
  | ⟨1, _⟩ =>
    show win3_2.index ⟨(i 0).val / 5000, hlt⟩ (1 : Fin 2) * 64 ≤ (i 1).val
      ∧ (i 1).val < win3_2.index ⟨(i 0).val / 5000, hlt⟩ (1 : Fin 2) * 64 + 64
    rw [eb]
    omega

theorem flushed_2 (c : Dev nD) (t : Fin cfg3.N) :
    (dat3 V c).flushed 2 t
      = ((cfg3.win 2).blk t).view.read (Elt Ideal) (addRow (M := 100000) (V c main_v54) (V c main_v19)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  show k3_pay1 (iblk3 V c 0 t) (iblk3 V c 1 t) j
    = addRow (M := 100000) (V c main_v54) (V c main_v19) (((cfg3.win 2).blk t).view.emb j)
  rw [emb_2 t j, addRow_rows, body_o, blk_0 V c t, blk_1 V c t]

theorem final_2 (c : Dev nD) :
    (dat3 V c).arrAt 2 cfg3.N = addRow (M := 100000) (V c main_v54) (V c main_v19) :=
  (dat3 V c).arrAt_eq_of_cover 2 _ (fun t _ => flushed_2 V c t) cover_2

end Cert.KernelIdeal.Region3

end
-- ==== Proof.LibGraphOps.lean ====
/-
  Table lookups and accumulating scatters along one index column, read at an index.

  `E` index words sit in a column `idx : [E, 1]`.
  * A lookup of rows of a table `[N, C]` (or of entries of a vector `[N]`) at those words returns, at `(e, c)`, the
    table's row `min (idx[e,0] read signed, negatives to 0) (N - 1)`, column `c`.
  * An accumulating scatter of updates `[E, C]` (or `[E]`) into `[N, C]` (or `[N]`) adds, at `(n, c)`, the updates
    `(k, c)` of exactly those `k` whose word reads `n` signed; over the extended reals the result is the operand's
    element plus that sum, written here as a sum over all `k` of "the update if the word reads `n`, else zero".
  Stated for every `N`, `E` and `C`.
-/
import Idealize.ShloMosaic.PureOps.Ideal
import Idealize.ShloMosaic.PureOps.Contract
import Idealize.ShloMosaic.Lib.ValueIdx

noncomputable section

namespace Cert.Bridge.GraphOps

open Idealize.ShloMosaic Idealize.ShloMosaic.ValueIdx
open scoped BigOperators

variable {N E C : ℕ}

/-- The vector scatter's dimension numbers: no window axis, the one operand axis inserted and indexed. -/
abbrev scatFlat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The row scatter's dimension numbers: the column axis a window axis, the row axis inserted and indexed. -/
abbrev scatRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The vector lookup's dimension numbers. -/
abbrev gathFlat (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row lookup's dimension numbers: whole rows of width `C`. -/
abbrev gathRows (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-! ## A rank-1 index is its one coordinate -/

/-- A rank-1 index is its coordinate. -/
def idxEquiv1 {n : ℕ} : (⟨1, ![n]⟩ : Shape).Idx ≃ Fin n where
  toFun j := j 0
  invFun e := ix1 e
  left_inv j := (eq_ix1 j).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Where an update starts and which window coordinate it carries -/

theorem scatFlat_start (wf) {w : ℕ} (e : Fin E) (idx : IVec ⟨2, ![E, 1]⟩ w) (a : Fin 1) :
    (scatFlat (N := N) (E := E) wf).start (ix1 e) idx a = (idx (ix2 e (0 : Fin 1))).toInt := by
  match a with
  | ⟨0, h0⟩ =>
    unfold ScatterDims.start
    rw [dif_pos (show (⟨0, h0⟩ : Fin 1) ∈ (scatFlat (N := N) (E := E) wf).scatterDimsToOperandDims from
      List.mem_singleton.2 rfl)]
    refine congrArg (fun k => (idx k).toInt) (funext fun b => ?_)
    match b with
    | ⟨0, _⟩ => exact Fin.ext rfl
    | ⟨1, _⟩ => exact Fin.ext rfl

theorem scatFlat_window (wf) (e : Fin E) (a : Fin 1) :
    (scatFlat (N := N) (E := E) wf).window (ix1 e) a = 0 := by
  match a with
  | ⟨0, _⟩ => rfl

theorem scatRows_start_0 (wf) {w : ℕ} (e : Fin E) (z : Fin C) (idx : IVec ⟨2, ![E, 1]⟩ w) :
    (scatRows (N := N) (E := E) (C := C) wf).start (ix2 e z) idx (0 : Fin 2) = (idx (ix2 e (0 : Fin 1))).toInt := by
  unfold ScatterDims.start
  rw [dif_pos (show (0 : Fin 2) ∈ (scatRows (N := N) (E := E) (C := C) wf).scatterDimsToOperandDims from
    List.mem_singleton.2 rfl)]
  refine congrArg (fun k => (idx k).toInt) (funext fun b => ?_)
  match b with
  | ⟨0, _⟩ => exact Fin.ext rfl
  | ⟨1, _⟩ => exact Fin.ext rfl

theorem scatRows_start_1 (wf) {w : ℕ} (e : Fin E) (z : Fin C) (idx : IVec ⟨2, ![E, 1]⟩ w) :
    (scatRows (N := N) (E := E) (C := C) wf).start (ix2 e z) idx (1 : Fin 2) = 0 := by
  unfold ScatterDims.start
  rw [dif_neg (show ¬ (1 : Fin 2) ∈ (scatRows (N := N) (E := E) (C := C) wf).scatterDimsToOperandDims from by
    intro h; exact Nat.one_ne_zero (congrArg Fin.val (List.mem_singleton.1 h)))]

theorem scatRows_window_0 (wf) (e : Fin E) (z : Fin C) :
    (scatRows (N := N) (E := E) (C := C) wf).window (ix2 e z) (0 : Fin 2) = 0 := rfl
theorem scatRows_window_1 (wf) (e : Fin E) (z : Fin C) :
    (scatRows (N := N) (E := E) (C := C) wf).window (ix2 e z) (1 : Fin 2) = z.val := rfl

/-! ## Where an update lands -/

/-- The vector scatter lands update `e` on place `n` exactly when its index word reads `n`. -/
theorem scatFlat_lands (wf) {w : ℕ} (e : Fin E) (idx : IVec ⟨2, ![E, 1]⟩ w) (n : Fin N) :
    (scatFlat (N := N) (E := E) wf).resultIdx? (ix1 e) idx = some (ix1 n)
      ↔ (idx (ix2 e (0 : Fin 1))).toInt = (n.val : ℤ) := by
  unfold ScatterDims.resultIdx?
  constructor
  · intro h
    split at h
    · have hv := congrArg Fin.val (congrFun (Option.some.inj h) (0 : Fin 1))
      have hv' : ((scatFlat (N := N) (E := E) wf).start (ix1 e) idx 0
          + ((scatFlat (N := N) (E := E) wf).window (ix1 e) 0 : ℤ)).toNat = n.val := hv
      rename_i hc
      have h0 := (hc (0 : Fin 1)).1
      rw [scatFlat_start, scatFlat_window] at hv' h0
      omega
    · exact absurd h (by simp)
  · intro h
    have hc : ∀ a, 0 ≤ (scatFlat (N := N) (E := E) wf).start (ix1 e) idx a
          + ((scatFlat (N := N) (E := E) wf).window (ix1 e) a : ℤ) ∧
        (scatFlat (N := N) (E := E) wf).start (ix1 e) idx a
          + ((scatFlat (N := N) (E := E) wf).window (ix1 e) a : ℤ) < ((⟨1, ![N]⟩ : Shape).size a : ℤ) := by
      intro a
      rw [scatFlat_start, scatFlat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((scatFlat (N := N) (E := E) wf).start (ix1 e) idx 0
        + ((scatFlat (N := N) (E := E) wf).window (ix1 e) 0 : ℤ)).toNat = n.val
      rw [scatFlat_start, scatFlat_window, h]
      omega

/-- The row scatter lands update `(e, z)` on place `(n, c)` exactly when the index word reads `n` and `z = c`. -/
theorem scatRows_lands (wf) {w : ℕ} (e : Fin E) (z : Fin C) (idx : IVec ⟨2, ![E, 1]⟩ w) (n : Fin N) (c : Fin C) :
    (scatRows (N := N) (E := E) (C := C) wf).resultIdx? (ix2 e z) idx = some (ix2 n c)
      ↔ (idx (ix2 e (0 : Fin 1))).toInt = (n.val : ℤ) ∧ z = c := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scatRows (N := N) (E := E) (C := C) wf).start (ix2 e z) idx 0
          + ((scatRows (N := N) (E := E) (C := C) wf).window (ix2 e z) 0 : ℤ)).toNat = n.val := hv0
      have hv1' : ((scatRows (N := N) (E := E) (C := C) wf).start (ix2 e z) idx 1
          + ((scatRows (N := N) (E := E) (C := C) wf).window (ix2 e z) 1 : ℤ)).toNat = c.val := hv1
      rename_i hc
      have h0 := (hc (0 : Fin 2)).1
      rw [scatRows_start_0, scatRows_window_0] at hv0' h0
      rw [scatRows_start_1, scatRows_window_1] at hv1'
      refine ⟨by omega, Fin.ext (by omega)⟩
    · exact absurd h (by simp)
  · rintro ⟨h, rfl⟩
    have hc : ∀ a, 0 ≤ (scatRows (N := N) (E := E) (C := C) wf).start (ix2 e z) idx a
          + ((scatRows (N := N) (E := E) (C := C) wf).window (ix2 e z) a : ℤ) ∧
        (scatRows (N := N) (E := E) (C := C) wf).start (ix2 e z) idx a
          + ((scatRows (N := N) (E := E) (C := C) wf).window (ix2 e z) a : ℤ)
          < ((⟨2, ![N, C]⟩ : Shape).size a : ℤ) := by
      intro a
      match a with
      | ⟨0, _⟩ =>
        show 0 ≤ (scatRows (N := N) (E := E) (C := C) wf).start (ix2 e z) idx 0
            + ((scatRows (N := N) (E := E) (C := C) wf).window (ix2 e z) 0 : ℤ) ∧
          (scatRows (N := N) (E := E) (C := C) wf).start (ix2 e z) idx 0
            + ((scatRows (N := N) (E := E) (C := C) wf).window (ix2 e z) 0 : ℤ) < (N : ℤ)
        rw [scatRows_start_0, scatRows_window_0, h]
        have := n.isLt
        omega
      | ⟨1, _⟩ =>
        show 0 ≤ (scatRows (N := N) (E := E) (C := C) wf).start (ix2 e z) idx 1
            + ((scatRows (N := N) (E := E) (C := C) wf).window (ix2 e z) 1 : ℤ) ∧
          (scatRows (N := N) (E := E) (C := C) wf).start (ix2 e z) idx 1
            + ((scatRows (N := N) (E := E) (C := C) wf).window (ix2 e z) 1 : ℤ) < (C : ℤ)
        rw [scatRows_start_1, scatRows_window_1]
        have := z.isLt
        omega
    rw [dif_pos hc]
    refine congrArg some (funext fun a => Fin.ext ?_)
    match a with
    | ⟨0, _⟩ =>
      show ((scatRows (N := N) (E := E) (C := C) wf).start (ix2 e z) idx 0
        + ((scatRows (N := N) (E := E) (C := C) wf).window (ix2 e z) 0 : ℤ)).toNat = n.val
      rw [scatRows_start_0, scatRows_window_0, h]
      omega
    | ⟨1, _⟩ =>
      show ((scatRows (N := N) (E := E) (C := C) wf).start (ix2 e z) idx 1
        + ((scatRows (N := N) (E := E) (C := C) wf).window (ix2 e z) 1 : ℤ)).toNat = z.val
      rw [scatRows_start_1, scatRows_window_1]
      omega

/-! ## The scatters read at an index -/

/-- The vector scatter at `n`: the operand's entry plus the updates of the words that read `n`. -/
theorem scatterAdd_flat_apply (wf) {w : ℕ} (x : (⟨1, ![N]⟩ : Shape).Idx → EReal) (idx : IVec ⟨2, ![E, 1]⟩ w)
    (upd : (⟨1, ![E]⟩ : Shape).Idx → EReal) (n : Fin N) :
    Ideal.hostScatterAdd (scatFlat (N := N) (E := E) wf) x idx upd (ix1 n)
      = x (ix1 n) + ∑ k : Fin E, if (idx (ix2 k (0 : Fin 1))).toInt = (n.val : ℤ) then upd (ix1 k) else 0 := by
  unfold Ideal.hostScatterAdd
  rw [Finset.sum_filter, sum_idx1]
  refine congrArg (x (ix1 n) + ·) (Finset.sum_congr rfl fun k _ => ?_)
  exact if_congr (scatFlat_lands wf k idx n) rfl rfl

/-- The row scatter at `(n, c)`: the operand's entry plus the updates `(k, c)` of the words that read `n`. -/
theorem scatterAdd_rows_apply (wf) {w : ℕ} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows (N := N) (E := E) (C := C) wf) x idx upd (ix2 n c)
      = x (ix2 n c) + ∑ k : Fin E, if (idx (ix2 k (0 : Fin 1))).toInt = (n.val : ℤ) then upd (ix2 k c) else 0 := by
  unfold Ideal.hostScatterAdd
  rw [Finset.sum_filter, sum_idx2]
  refine congrArg (x (ix2 n c) + ·) (Finset.sum_congr rfl fun k _ => ?_)
  by_cases hk : (idx (ix2 k (0 : Fin 1))).toInt = (n.val : ℤ)
  · rw [if_pos hk]
    have : ∀ z : Fin C, (if (scatRows (N := N) (E := E) (C := C) wf).resultIdx? (ix2 k z) idx = some (ix2 n c)
        then upd (ix2 k z) else 0) = if z = c then upd (ix2 k z) else 0 := fun z =>
      if_congr ((scatRows_lands wf k z idx n c).trans (and_iff_right hk)) rfl rfl
    rw [Finset.sum_congr rfl fun z _ => this z, Finset.sum_ite_eq' Finset.univ c, if_pos (Finset.mem_univ c)]
  · rw [if_neg hk]
    refine Finset.sum_eq_zero fun z _ => ?_
    exact if_neg fun h => hk ((scatRows_lands wf k z idx n c).1 h).1

/-! ## The lookups read at an index -/

/-- The vector lookup at `e`: the entry at the word read signed and clamped into `0 … N-1`. -/
theorem gather_flat_apply {α : Type} (hN : 0 < N) (wf) {w : ℕ} (x : (⟨1, ![N]⟩ : Shape).Idx → α)
    (idx : IVec ⟨2, ![E, 1]⟩ w) (e : Fin E) :
    Host.gather (gathFlat (N := N) (E := E) wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathFlat (N := N) (E := E) wf).start (ix1 e) idx 0 + (gathFlat (N := N) (E := E) wf).batchCoord (ix1 e) 0
    + (gathFlat (N := N) (E := E) wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat (N := N) (E := E) wf).startIndexMap from List.mem_singleton.mpr rfl)]
  have hsi : (gathFlat (N := N) (E := E) wf).siIdx (ix1 e)
      ⟨List.idxOf (0 : Fin 1) (gathFlat (N := N) (E := E) wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row lookup at `(e, c)`: column `c` of the row at the word read signed and clamped into `0 … N-1`. -/
theorem gather_rows_apply {α : Type} (hN : 0 < N) (wf) {w : ℕ} (x : (⟨2, ![N, C]⟩ : Shape).Idx → α)
    (idx : IVec ⟨2, ![E, 1]⟩ w) (e : Fin E) (c : Fin C) :
    Host.gather (gathRows (N := N) (E := E) (C := C) wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gathRows (N := N) (E := E) (C := C) wf).start (ix2 e c) idx 0
      + (gathRows (N := N) (E := E) (C := C) wf).batchCoord (ix2 e c) 0
      + (gathRows (N := N) (E := E) (C := C) wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows (N := N) (E := E) (C := C) wf).startIndexMap from
      List.mem_singleton.mpr rfl)]
    have hsi : (gathRows (N := N) (E := E) (C := C) wf).siIdx (ix2 e c)
        ⟨List.idxOf (0 : Fin 2) (gathRows (N := N) (E := E) (C := C) wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathRows (N := N) (E := E) (C := C) wf).start (ix2 e c) idx 1
      + (gathRows (N := N) (E := E) (C := C) wf).batchCoord (ix2 e c) 1
      + (gathRows (N := N) (E := E) (C := C) wf).offCoord (ix2 e c) 1 = c.val
    rw [GatherDims.batchCoord_eq_zero _ _ _ List.not_mem_nil]
    have hs : (gathRows (N := N) (E := E) (C := C) wf).start (ix2 e c) idx 1 = 0 := by
      unfold GatherDims.start
      rw [dif_neg (show ¬ (1 : Fin 2) ∈ (gathRows (N := N) (E := E) (C := C) wf).startIndexMap from by
        intro h; exact Nat.one_ne_zero (congrArg Fin.val (List.mem_singleton.1 h)))]
    have ho : (gathRows (N := N) (E := E) (C := C) wf).offCoord (ix2 e c) 1 = c.val := rfl
    rw [hs, ho]
    omega

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

end Cert.Bridge.GraphOps

end
-- ==== Proof.RefStages.lean ====
/-
  The reference, stage by stage, in the formulas the kernel bodies compute.

  The reference spells a norm column as two broadcasts of the norm vector, a bias as two broadcasts of the bias vector,
  and its matrix products with the host's general contraction. Read at an index these are: the norm of the row, the
  bias of the column, and the plain sum over the contracted axis. So
  * the first pre-aggregation rows are the scaled feature rows times the first weights;
  * a layer output is `max (agg(r,k) · d(r) + b(k)) 0` of the aggregated rows;
  * the second pre-aggregation rows are the first layer's output rows, scaled, times the second weights;
  and an aggregation step (wrap negative source indices, look the rows up, add each into its destination's row of a
  zero table) is one and the same operation wherever it occurs.
-/
import proofs.«106296_j65111704207521_2_alg».proof.Proof.Gen.ReferenceIdeal.Read
import proofs.«106296_j65111704207521_2_alg».proof.Proof.Spec
import proofs.«106296_j65111704207521_2_alg».proof.Proof.LibDense
import proofs.«106296_j65111704207521_2_alg».proof.Proof.LibLayout
import proofs.«106296_j65111704207521_2_alg».proof.Proof.LibGraphOps
import Idealize.ShloMosaic.PureOps.Ideal
import Idealize.ShloMosaic.Lib.Pipeline.Value
import Idealize.ShloMosaic.Lib.ValueIdx
import Idealize.ShloMosaic.Lib.ValueLayout

set_option maxRecDepth 16384

noncomputable section

namespace Cert.ReferenceIdeal.Stages

open Idealize.ShloMosaic Idealize.ShloMosaic.TcCoe Idealize.ShloMosaic.ValueIdx
open Cert.ReferenceIdeal Cert.ReferenceIdeal.Read Cert.Bridge.Spec Cert.Bridge.Layout Cert.Dense Cert.Bridge.GraphOps
open scoped BigOperators

/-- A rank-1 index is determined by its coordinate. -/
theorem idx1_eq {n : ℕ} (j : (⟨1, ![n]⟩ : Shape).Idx) (r : Fin n) (h : (j 0).val = r.val) : j = ix1 r := by
  funext a
  match a with
  | ⟨0, _⟩ => exact Fin.ext h

/-- A rank-2 index is determined by its two coordinates. -/
theorem idx2_eq {a b : ℕ} (j : (⟨2, ![a, b]⟩ : Shape).Idx) (p : Fin a) (q : Fin b) (h0 : (j 0).val = p.val)
    (h1 : (j 1).val = q.val) : j = ix2 p q := by
  funext c
  match c with
  | ⟨0, _⟩ => exact Fin.ext h0
  | ⟨1, _⟩ => exact Fin.ext h1

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S128x64, .f32⟩ : BufTy).Contents (Elt Ideal)) (x8 : (⟨S64, .f32⟩ : BufTy).Contents (Elt Ideal))

/-- The out-degree norm as a column. -/
abbrev colS (hc : S100000.ShapeCasts S100000x1) : S100000x1.Idx → EReal :=
  shapeCast S100000x1 (val_main_v12 (F := Ideal) x1) hc
/-- The in-degree norm as a column. -/
abbrev colD (hc : S100000.ShapeCasts S100000x1) : S100000x1.Idx → EReal :=
  shapeCast S100000x1 (val_main_v14 (F := Ideal) x2) hc
/-- A bias vector as a row. -/
abbrev asRow (hr : S64.ShapeCasts S1x64) (b : S64.Idx → EReal) : S1x64.Idx → EReal := shapeCast S1x64 b hr

/-! ## One aggregation step -/

/-- Wrap negative source indices, look the rows of `X` up, add each into its destination's row of a zero table. -/
def agg (X : FVec Ideal S100000x64 .f32) : FVec Ideal S100000x64 .f32 :=
  Host.scatterAdd (F := Ideal) (φ := .f32) scatter_S100000x64_S1600000x1_S1600000x64_1_0_0_1 (val_main_v26 (F := Ideal))
    (val_main_v27 (F := Ideal) x2)
    (Host.gather gather_S100000x64_S1600000x1_S1600000x64_1_0_n_n_0_1_164 X (val_main_v24 (F := Ideal) x1))

theorem v28_eq : val_main_v28 (F := Ideal) x0 x1 x2 x3 = agg x1 x2 (val_main_v18 (F := Ideal) x0 x1 x3) := rfl
theorem v49_eq : val_main_v49 (F := Ideal) x0 x1 x2 x3 x4 x5
    = agg x1 x2 (val_main_v39 (F := Ideal) x0 x1 x2 x3 x4 x5) := rfl

/-! ## The dense stages -/

theorem v18_eq (hc : S100000.ShapeCasts S100000x1) :
    matProd (M := 100000) (scaleRows x0 (colS x1 hc)) x3 = val_main_v18 (F := Ideal) x0 x1 x3 := by
  unfold val_main_v18
  rw [dotGeneral_eq_matProd dot_S100000x128_S128x64_S100000x64_1_0_0_1_n_n rfl]
  refine congrArg (fun X => matProd (M := 100000) X x3) ?_
  funext i
  obtain ⟨r, k, rfl⟩ : ∃ (r : Fin 100000) (k : Fin 128), i = ix2 r k := ⟨i 0, i 1, eq_ix2 i⟩
  rw [scaleRows_apply]
  unfold colS
  rw [shapeCast_a_a1_apply, val_main_v17_apply, val_main_v16_apply, val_main_v15_apply,
    idx1_eq (idx_main_v15 (idx_main_v16 (ix2 r k))) r rfl]
  rfl

/-- A layer output from the aggregated rows, the in-degree norm vector `nd` and a bias vector. -/
theorem relu_stage (A : S100000x64.Idx → EReal) (nd : S100000.Idx → EReal) (b : S64.Idx → EReal)
    (hc : S100000.ShapeCasts S100000x1) (hr : S64.ShapeCasts S1x64) (r : Fin 100000) (k : Fin 64) :
    normBiasRelu (M := 100000) A (shapeCast S100000x1 nd hc) (asRow hr b) (ix2 r k)
      = max (A (ix2 r k) * nd (ix1 r) + b (ix1 k)) zeroWord := by
  rw [normBiasRelu_apply, shapeCast_a_a1_apply]
  unfold asRow
  rw [shapeCast_a_1a_apply]

theorem v35_eq (hc : S100000.ShapeCasts S100000x1) (hr : S64.ShapeCasts S1x64) :
    normBiasRelu (M := 100000) (val_main_v28 (F := Ideal) x0 x1 x2 x3) (colD x2 hc) (asRow hr x4)
      = val_main_v35 (F := Ideal) x0 x1 x2 x3 x4 := by
  funext i
  obtain ⟨r, k, rfl⟩ : ∃ (r : Fin 100000) (k : Fin 64), i = ix2 r k := ⟨i 0, i 1, eq_ix2 i⟩
  unfold colD
  rw [relu_stage, val_main_v35_apply, val_main_v34_apply, val_main_v31_apply, val_main_v30_apply, val_main_v29_apply,
    val_main_v33_apply, val_main_v32_apply, val_main_call0_v0_apply,
    idx1_eq (idx_main_v29 (idx_main_v30 (ix2 r k))) r rfl, idx1_eq (idx_main_v32 (idx_main_v33 (ix2 r k))) k rfl]
  rfl

theorem v39_eq (hc : S100000.ShapeCasts S100000x1) :
    matProd (M := 100000) (scaleRows (val_main_v35 (F := Ideal) x0 x1 x2 x3 x4) (colS x1 hc)) x5
      = val_main_v39 (F := Ideal) x0 x1 x2 x3 x4 x5 := by
  unfold val_main_v39
  rw [dotGeneral_eq_matProd dot_S100000x64_S64x64_S100000x64_1_0_0_1_n_n rfl]
  refine congrArg (fun X => matProd (M := 100000) X x5) ?_
  funext i
  obtain ⟨r, k, rfl⟩ : ∃ (r : Fin 100000) (k : Fin 64), i = ix2 r k := ⟨i 0, i 1, eq_ix2 i⟩
  rw [scaleRows_apply]
  unfold colS
  rw [shapeCast_a_a1_apply, val_main_v38_apply, val_main_v37_apply, val_main_v36_apply,
    idx1_eq (idx_main_v36 (idx_main_v37 (ix2 r k))) r rfl]
  rfl

theorem v56_eq (hc : S100000.ShapeCasts S100000x1) (hr : S64.ShapeCasts S1x64) :
    normBiasRelu (M := 100000) (val_main_v49 (F := Ideal) x0 x1 x2 x3 x4 x5) (colD x2 hc) (asRow hr x6)
      = val_main_v56 (F := Ideal) x0 x1 x2 x3 x4 x5 x6 := by
  funext i
  obtain ⟨r, k, rfl⟩ : ∃ (r : Fin 100000) (k : Fin 64), i = ix2 r k := ⟨i 0, i 1, eq_ix2 i⟩
  unfold colD
  rw [relu_stage, val_main_v56_apply, val_main_v55_apply, val_main_v52_apply, val_main_v51_apply, val_main_v50_apply,
    val_main_v54_apply, val_main_v53_apply, val_main_call1_v0_apply,
    idx1_eq (idx_main_v50 (idx_main_v51 (ix2 r k))) r rfl, idx1_eq (idx_main_v53 (idx_main_v54 (ix2 r k))) k rfl]
  rfl

/-- Layer outputs are non-negative. -/
theorem v35_nonneg (hc : S100000.ShapeCasts S100000x1) (hr : S64.ShapeCasts S1x64) (i : S100000x64.Idx) :
    0 ≤ val_main_v35 (F := Ideal) x0 x1 x2 x3 x4 i := by
  rw [← v35_eq x0 x1 x2 x3 x4 hc hr]; exact normBiasRelu_nonneg _ _ _ i
theorem v56_nonneg (hc : S100000.ShapeCasts S100000x1) (hr : S64.ShapeCasts S1x64) (i : S100000x64.Idx) :
    0 ≤ val_main_v56 (F := Ideal) x0 x1 x2 x3 x4 x5 x6 i := by
  rw [← v56_eq x0 x1 x2 x3 x4 x5 x6 hc hr]; exact normBiasRelu_nonneg _ _ _ i

end Cert.ReferenceIdeal.Stages

end
-- ==== Proof.Fold.lean ====
/-
  What the kernel's memory fold holds, buffer by buffer.

  The fold `W0, W1, …, W8` of @main's eight steps over the launch memory is read here at the buffers that matter.
  * A buffer no step writes keeps its launch contents; a buffer a host stretch wrote holds that stretch's term and
    keeps it through every later step that does not write it (the `L⟨level⟩_⟨buffer⟩` lemmas, each one step back).
  * The first host stretch computes the two degree-norm columns, the three bias rows and the two halves of the last
    weight matrix from the arguments — with the reference's own operations.
  * Each launch's output array is its body's whole-array formula of the launch's operand arrays; each of the three
    later host stretches is one aggregation step of the array the launch before it wrote.
  Chaining these, every intermediate array equals the reference's corresponding stage, up to the last aggregation,
  where the kernel aggregates the already-weighted rows (`out`).
-/
import proofs.«106296_j65111704207521_2_alg».proof.Proof.Gen.KernelIdeal.Frame
import proofs.«106296_j65111704207521_2_alg».proof.Proof.Region0
import proofs.«106296_j65111704207521_2_alg».proof.Proof.Region1
import proofs.«106296_j65111704207521_2_alg».proof.Proof.Region2
import proofs.«106296_j65111704207521_2_alg».proof.Proof.Region3
import proofs.«106296_j65111704207521_2_alg».proof.Proof.RefStages
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.ShloMosaic.Tactic Idealize.ShloMosaic.ValueIdx Idealize.SL.Sem
open Idealize.ShloMosaic.Pipeline (Dat Cfg Window)
open Cert.KernelIdeal Cert.KernelIdeal.Gen Cert.Bridge.Spec Cert.Dense
open Cert.ReferenceIdeal (Stages.colS Stages.colD Stages.asRow Stages.agg)
open Cert.ReferenceIdeal.Read (val_main_v18 val_main_v28 val_main_v35 val_main_v39 val_main_v49 val_main_v56)

/-- A buffer that no operation of a host stretch writes is unchanged by the stretch. -/
macro "not_written_by " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

variable (m : (ℓ : Loc nD τ sig) → Buf (Elt Ideal) ℓ) (ρ : Dev nD → PrngReg)

/-! ## The arguments as launched -/
abbrev A0 (c : Dev nD) : (⟨S100000x128, .f32⟩ : BufTy).Contents (Elt Ideal) := m ((c : Thread nD τ).loc main_arg0)
abbrev A1 (c : Dev nD) : (⟨S1600000, .i32⟩ : BufTy).Contents (Elt Ideal) := m ((c : Thread nD τ).loc main_arg1)
abbrev A2 (c : Dev nD) : (⟨S1600000, .i32⟩ : BufTy).Contents (Elt Ideal) := m ((c : Thread nD τ).loc main_arg2)
abbrev A3 (c : Dev nD) : (⟨S128x64, .f32⟩ : BufTy).Contents (Elt Ideal) := m ((c : Thread nD τ).loc main_arg3)
abbrev A4 (c : Dev nD) : (⟨S64, .f32⟩ : BufTy).Contents (Elt Ideal) := m ((c : Thread nD τ).loc main_arg4)
abbrev A5 (c : Dev nD) : (⟨S64x64, .f32⟩ : BufTy).Contents (Elt Ideal) := m ((c : Thread nD τ).loc main_arg5)
abbrev A6 (c : Dev nD) : (⟨S64, .f32⟩ : BufTy).Contents (Elt Ideal) := m ((c : Thread nD τ).loc main_arg6)
abbrev A7 (c : Dev nD) : (⟨S128x64, .f32⟩ : BufTy).Contents (Elt Ideal) := m ((c : Thread nD τ).loc main_arg7)
abbrev A8 (c : Dev nD) : (⟨S64, .f32⟩ : BufTy).Contents (Elt Ideal) := m ((c : Thread nD τ).loc main_arg8)

/-! ## Buffers carried through the steps -/

theorem L1_arg0 (c : Dev nD) :
    (W1 (F := Ideal) m ρ c (Proc.devRef .tc main_arg0) : (⟨S100000x128, .f32⟩ : BufTy).Contents (Elt Ideal)) = A0 m c :=
  (show StableHlo.after hostOps0 (W0 m ρ c) (Proc.devRef .tc main_arg0) = W0 m ρ c (Proc.devRef .tc main_arg0) from by
    not_written_by hostOps0)

theorem L1_arg3 (c : Dev nD) :
    (W1 (F := Ideal) m ρ c (Proc.devRef .tc main_arg3) : (⟨S128x64, .f32⟩ : BufTy).Contents (Elt Ideal)) = A3 m c :=
  (show StableHlo.after hostOps0 (W0 m ρ c) (Proc.devRef .tc main_arg3) = W0 m ρ c (Proc.devRef .tc main_arg3) from by
    not_written_by hostOps0)

theorem L1_arg1 (c : Dev nD) :
    (W1 (F := Ideal) m ρ c (Proc.devRef .tc main_arg1) : (⟨S1600000, .i32⟩ : BufTy).Contents (Elt Ideal)) = A1 m c :=
  (show StableHlo.after hostOps0 (W0 m ρ c) (Proc.devRef .tc main_arg1) = W0 m ρ c (Proc.devRef .tc main_arg1) from by
    not_written_by hostOps0)
theorem L2_arg1 (c : Dev nD) :
    (W2 (F := Ideal) m ρ c (Proc.devRef .tc main_arg1) : (⟨S1600000, .i32⟩ : BufTy).Contents (Elt Ideal)) = A1 m c :=
  (W2_of_ne m ρ c main_arg1 (by decide)).trans (L1_arg1 m ρ c)
theorem L3_arg1 (c : Dev nD) :
    (W3 (F := Ideal) m ρ c (Proc.devRef .tc main_arg1) : (⟨S1600000, .i32⟩ : BufTy).Contents (Elt Ideal)) = A1 m c :=
  (show StableHlo.after hostOps1 (W2 m ρ c) (Proc.devRef .tc main_arg1) = W2 m ρ c (Proc.devRef .tc main_arg1) from by
    not_written_by hostOps1).trans (L2_arg1 m ρ c)
theorem L4_arg1 (c : Dev nD) :
    (W4 (F := Ideal) m ρ c (Proc.devRef .tc main_arg1) : (⟨S1600000, .i32⟩ : BufTy).Contents (Elt Ideal)) = A1 m c :=
  (W4_of_ne m ρ c main_arg1 (by decide)).trans (L3_arg1 m ρ c)
theorem L5_arg1 (c : Dev nD) :
    (W5 (F := Ideal) m ρ c (Proc.devRef .tc main_arg1) : (⟨S1600000, .i32⟩ : BufTy).Contents (Elt Ideal)) = A1 m c :=
  (show StableHlo.after hostOps2 (W4 m ρ c) (Proc.devRef .tc main_arg1) = W4 m ρ c (Proc.devRef .tc main_arg1) from by
    not_written_by hostOps2).trans (L4_arg1 m ρ c)
theorem L6_arg1 (c : Dev nD) :
    (W6 (F := Ideal) m ρ c (Proc.devRef .tc main_arg1) : (⟨S1600000, .i32⟩ : BufTy).Contents (Elt Ideal)) = A1 m c :=
  (W6_of_ne m ρ c main_arg1 (by decide)).trans (L5_arg1 m ρ c)

theorem L1_arg2 (c : Dev nD) :
    (W1 (F := Ideal) m ρ c (Proc.devRef .tc main_arg2) : (⟨S1600000, .i32⟩ : BufTy).Contents (Elt Ideal)) = A2 m c :=
  (show StableHlo.after hostOps0 (W0 m ρ c) (Proc.devRef .tc main_arg2) = W0 m ρ c (Proc.devRef .tc main_arg2) from by
    not_written_by hostOps0)
theorem L2_arg2 (c : Dev nD) :
    (W2 (F := Ideal) m ρ c (Proc.devRef .tc main_arg2) : (⟨S1600000, .i32⟩ : BufTy).Contents (Elt Ideal)) = A2 m c :=
  (W2_of_ne m ρ c main_arg2 (by decide)).trans (L1_arg2 m ρ c)
theorem L3_arg2 (c : Dev nD) :
    (W3 (F := Ideal) m ρ c (Proc.devRef .tc main_arg2) : (⟨S1600000, .i32⟩ : BufTy).Contents (Elt Ideal)) = A2 m c :=
  (show StableHlo.after hostOps1 (W2 m ρ c) (Proc.devRef .tc main_arg2) = W2 m ρ c (Proc.devRef .tc main_arg2) from by
    not_written_by hostOps1).trans (L2_arg2 m ρ c)
theorem L4_arg2 (c : Dev nD) :
    (W4 (F := Ideal) m ρ c (Proc.devRef .tc main_arg2) : (⟨S1600000, .i32⟩ : BufTy).Contents (Elt Ideal)) = A2 m c :=
  (W4_of_ne m ρ c main_arg2 (by decide)).trans (L3_arg2 m ρ c)
theorem L5_arg2 (c : Dev nD) :
    (W5 (F := Ideal) m ρ c (Proc.devRef .tc main_arg2) : (⟨S1600000, .i32⟩ : BufTy).Contents (Elt Ideal)) = A2 m c :=
  (show StableHlo.after hostOps2 (W4 m ρ c) (Proc.devRef .tc main_arg2) = W4 m ρ c (Proc.devRef .tc main_arg2) from by
    not_written_by hostOps2).trans (L4_arg2 m ρ c)
theorem L6_arg2 (c : Dev nD) :
    (W6 (F := Ideal) m ρ c (Proc.devRef .tc main_arg2) : (⟨S1600000, .i32⟩ : BufTy).Contents (Elt Ideal)) = A2 m c :=
  (W6_of_ne m ρ c main_arg2 (by decide)).trans (L5_arg2 m ρ c)

theorem L1_arg5 (c : Dev nD) :
    (W1 (F := Ideal) m ρ c (Proc.devRef .tc main_arg5) : (⟨S64x64, .f32⟩ : BufTy).Contents (Elt Ideal)) = A5 m c :=
  (show StableHlo.after hostOps0 (W0 m ρ c) (Proc.devRef .tc main_arg5) = W0 m ρ c (Proc.devRef .tc main_arg5) from by
    not_written_by hostOps0)
theorem L2_arg5 (c : Dev nD) :
    (W2 (F := Ideal) m ρ c (Proc.devRef .tc main_arg5) : (⟨S64x64, .f32⟩ : BufTy).Contents (Elt Ideal)) = A5 m c :=
  (W2_of_ne m ρ c main_arg5 (by decide)).trans (L1_arg5 m ρ c)
theorem L3_arg5 (c : Dev nD) :
    (W3 (F := Ideal) m ρ c (Proc.devRef .tc main_arg5) : (⟨S64x64, .f32⟩ : BufTy).Contents (Elt Ideal)) = A5 m c :=
  (show StableHlo.after hostOps1 (W2 m ρ c) (Proc.devRef .tc main_arg5) = W2 m ρ c (Proc.devRef .tc main_arg5) from by
    not_written_by hostOps1).trans (L2_arg5 m ρ c)

theorem L1_v13 (c : Dev nD) :
    (W1 (F := Ideal) m ρ c (Proc.devRef .tc main_v13) : (⟨S100000x1, .f32⟩ : BufTy).Contents (Elt Ideal)) = Stages.colS (A1 m c) shapeCasts_S100000_S100000x1 := by
  show StableHlo.after hostOps0 (W0 m ρ c) (Proc.devRef .tc main_v13) = _
  after_results
  rfl
theorem L2_v13 (c : Dev nD) :
    (W2 (F := Ideal) m ρ c (Proc.devRef .tc main_v13) : (⟨S100000x1, .f32⟩ : BufTy).Contents (Elt Ideal)) = Stages.colS (A1 m c) shapeCasts_S100000_S100000x1 :=
  ((W2_arr m ρ c 1).trans (((dat0 (V1 m ρ) c).arrAt_in 1 rfl _).trans (A_eq0 (V1 m ρ) c 1))).trans (L1_v13 m ρ c)
theorem L3_v13 (c : Dev nD) :
    (W3 (F := Ideal) m ρ c (Proc.devRef .tc main_v13) : (⟨S100000x1, .f32⟩ : BufTy).Contents (Elt Ideal)) = Stages.colS (A1 m c) shapeCasts_S100000_S100000x1 :=
  (show StableHlo.after hostOps1 (W2 m ρ c) (Proc.devRef .tc main_v13) = W2 m ρ c (Proc.devRef .tc main_v13) from by
    not_written_by hostOps1).trans (L2_v13 m ρ c)

theorem L1_v16 (c : Dev nD) :
    (W1 (F := Ideal) m ρ c (Proc.devRef .tc main_v16) : (⟨S100000x1, .f32⟩ : BufTy).Contents (Elt Ideal)) = Stages.colD (A2 m c) shapeCasts_S100000_S100000x1 := by
  show StableHlo.after hostOps0 (W0 m ρ c) (Proc.devRef .tc main_v16) = _
  after_results
  rfl
theorem L2_v16 (c : Dev nD) :
    (W2 (F := Ideal) m ρ c (Proc.devRef .tc main_v16) : (⟨S100000x1, .f32⟩ : BufTy).Contents (Elt Ideal)) = Stages.colD (A2 m c) shapeCasts_S100000_S100000x1 :=
  (W2_of_ne m ρ c main_v16 (by decide)).trans (L1_v16 m ρ c)
theorem L3_v16 (c : Dev nD) :
    (W3 (F := Ideal) m ρ c (Proc.devRef .tc main_v16) : (⟨S100000x1, .f32⟩ : BufTy).Contents (Elt Ideal)) = Stages.colD (A2 m c) shapeCasts_S100000_S100000x1 :=
  (show StableHlo.after hostOps1 (W2 m ρ c) (Proc.devRef .tc main_v16) = W2 m ρ c (Proc.devRef .tc main_v16) from by
    not_written_by hostOps1).trans (L2_v16 m ρ c)
theorem L4_v16 (c : Dev nD) :
    (W4 (F := Ideal) m ρ c (Proc.devRef .tc main_v16) : (⟨S100000x1, .f32⟩ : BufTy).Contents (Elt Ideal)) = Stages.colD (A2 m c) shapeCasts_S100000_S100000x1 :=
  ((W4_arr m ρ c 1).trans (((dat1 (V3 m ρ) c).arrAt_in 1 rfl _).trans (A_eq1 (V3 m ρ) c 1))).trans (L3_v16 m ρ c)
theorem L5_v16 (c : Dev nD) :
    (W5 (F := Ideal) m ρ c (Proc.devRef .tc main_v16) : (⟨S100000x1, .f32⟩ : BufTy).Contents (Elt Ideal)) = Stages.colD (A2 m c) shapeCasts_S100000_S100000x1 :=
  (show StableHlo.after hostOps2 (W4 m ρ c) (Proc.devRef .tc main_v16) = W4 m ρ c (Proc.devRef .tc main_v16) from by
    not_written_by hostOps2).trans (L4_v16 m ρ c)

theorem L1_v17 (c : Dev nD) :
    (W1 (F := Ideal) m ρ c (Proc.devRef .tc main_v17) : (⟨S1x64, .f32⟩ : BufTy).Contents (Elt Ideal)) = Stages.asRow shapeCasts_S64_S1x64 (A4 m c) := by
  show StableHlo.after hostOps0 (W0 m ρ c) (Proc.devRef .tc main_v17) = _
  after_results
  rfl
theorem L2_v17 (c : Dev nD) :
    (W2 (F := Ideal) m ρ c (Proc.devRef .tc main_v17) : (⟨S1x64, .f32⟩ : BufTy).Contents (Elt Ideal)) = Stages.asRow shapeCasts_S64_S1x64 (A4 m c) :=
  (W2_of_ne m ρ c main_v17 (by decide)).trans (L1_v17 m ρ c)
theorem L3_v17 (c : Dev nD) :
    (W3 (F := Ideal) m ρ c (Proc.devRef .tc main_v17) : (⟨S1x64, .f32⟩ : BufTy).Contents (Elt Ideal)) = Stages.asRow shapeCasts_S64_S1x64 (A4 m c) :=
  (show StableHlo.after hostOps1 (W2 m ρ c) (Proc.devRef .tc main_v17) = W2 m ρ c (Proc.devRef .tc main_v17) from by
    not_written_by hostOps1).trans (L2_v17 m ρ c)

theorem L1_v18 (c : Dev nD) :
    (W1 (F := Ideal) m ρ c (Proc.devRef .tc main_v18) : (⟨S1x64, .f32⟩ : BufTy).Contents (Elt Ideal)) = Stages.asRow shapeCasts_S64_S1x64 (A6 m c) := by
  show StableHlo.after hostOps0 (W0 m ρ c) (Proc.devRef .tc main_v18) = _
  after_results
  rfl
theorem L2_v18 (c : Dev nD) :
    (W2 (F := Ideal) m ρ c (Proc.devRef .tc main_v18) : (⟨S1x64, .f32⟩ : BufTy).Contents (Elt Ideal)) = Stages.asRow shapeCasts_S64_S1x64 (A6 m c) :=
  (W2_of_ne m ρ c main_v18 (by decide)).trans (L1_v18 m ρ c)
theorem L3_v18 (c : Dev nD) :
    (W3 (F := Ideal) m ρ c (Proc.devRef .tc main_v18) : (⟨S1x64, .f32⟩ : BufTy).Contents (Elt Ideal)) = Stages.asRow shapeCasts_S64_S1x64 (A6 m c) :=
  (show StableHlo.after hostOps1 (W2 m ρ c) (Proc.devRef .tc main_v18) = W2 m ρ c (Proc.devRef .tc main_v18) from by
    not_written_by hostOps1).trans (L2_v18 m ρ c)
theorem L4_v18 (c : Dev nD) :
    (W4 (F := Ideal) m ρ c (Proc.devRef .tc main_v18) : (⟨S1x64, .f32⟩ : BufTy).Contents (Elt Ideal)) = Stages.asRow shapeCasts_S64_S1x64 (A6 m c) :=
  (W4_of_ne m ρ c main_v18 (by decide)).trans (L3_v18 m ρ c)
theorem L5_v18 (c : Dev nD) :
    (W5 (F := Ideal) m ρ c (Proc.devRef .tc main_v18) : (⟨S1x64, .f32⟩ : BufTy).Contents (Elt Ideal)) = Stages.asRow shapeCasts_S64_S1x64 (A6 m c) :=
  (show StableHlo.after hostOps2 (W4 m ρ c) (Proc.devRef .tc main_v18) = W4 m ρ c (Proc.devRef .tc main_v18) from by
    not_written_by hostOps2).trans (L4_v18 m ρ c)

theorem L1_v19 (c : Dev nD) :
    (W1 (F := Ideal) m ρ c (Proc.devRef .tc main_v19) : (⟨S1x64, .f32⟩ : BufTy).Contents (Elt Ideal)) = Stages.asRow shapeCasts_S64_S1x64 (A8 m c) := by
  show StableHlo.after hostOps0 (W0 m ρ c) (Proc.devRef .tc main_v19) = _
  after_results
  rfl
theorem L2_v19 (c : Dev nD) :
    (W2 (F := Ideal) m ρ c (Proc.devRef .tc main_v19) : (⟨S1x64, .f32⟩ : BufTy).Contents (Elt Ideal)) = Stages.asRow shapeCasts_S64_S1x64 (A8 m c) :=
  (W2_of_ne m ρ c main_v19 (by decide)).trans (L1_v19 m ρ c)
theorem L3_v19 (c : Dev nD) :
    (W3 (F := Ideal) m ρ c (Proc.devRef .tc main_v19) : (⟨S1x64, .f32⟩ : BufTy).Contents (Elt Ideal)) = Stages.asRow shapeCasts_S64_S1x64 (A8 m c) :=
  (show StableHlo.after hostOps1 (W2 m ρ c) (Proc.devRef .tc main_v19) = W2 m ρ c (Proc.devRef .tc main_v19) from by
    not_written_by hostOps1).trans (L2_v19 m ρ c)
theorem L4_v19 (c : Dev nD) :
    (W4 (F := Ideal) m ρ c (Proc.devRef .tc main_v19) : (⟨S1x64, .f32⟩ : BufTy).Contents (Elt Ideal)) = Stages.asRow shapeCasts_S64_S1x64 (A8 m c) :=
  (W4_of_ne m ρ c main_v19 (by decide)).trans (L3_v19 m ρ c)
theorem L5_v19 (c : Dev nD) :
    (W5 (F := Ideal) m ρ c (Proc.devRef .tc main_v19) : (⟨S1x64, .f32⟩ : BufTy).Contents (Elt Ideal)) = Stages.asRow shapeCasts_S64_S1x64 (A8 m c) :=
  (show StableHlo.after hostOps2 (W4 m ρ c) (Proc.devRef .tc main_v19) = W4 m ρ c (Proc.devRef .tc main_v19) from by
    not_written_by hostOps2).trans (L4_v19 m ρ c)
theorem L6_v19 (c : Dev nD) :
    (W6 (F := Ideal) m ρ c (Proc.devRef .tc main_v19) : (⟨S1x64, .f32⟩ : BufTy).Contents (Elt Ideal)) = Stages.asRow shapeCasts_S64_S1x64 (A8 m c) :=
  (W6_of_ne m ρ c main_v19 (by decide)).trans (L5_v19 m ρ c)
theorem L7_v19 (c : Dev nD) :
    (W7 (F := Ideal) m ρ c (Proc.devRef .tc main_v19) : (⟨S1x64, .f32⟩ : BufTy).Contents (Elt Ideal)) = Stages.asRow shapeCasts_S64_S1x64 (A8 m c) :=
  (show StableHlo.after hostOps3 (W6 m ρ c) (Proc.devRef .tc main_v19) = W6 m ρ c (Proc.devRef .tc main_v19) from by
    not_written_by hostOps3).trans (L6_v19 m ρ c)

theorem L1_v20 (c : Dev nD) :
    (W1 (F := Ideal) m ρ c (Proc.devRef .tc main_v20) : (⟨S64x64, .f32⟩ : BufTy).Contents (Elt Ideal)) = extractStridedSlice S64x64 ![0, 0] (A7 m c) slices_S128x64_S64x64_0_0 := by
  show StableHlo.after hostOps0 (W0 m ρ c) (Proc.devRef .tc main_v20) = _
  after_results
theorem L2_v20 (c : Dev nD) :
    (W2 (F := Ideal) m ρ c (Proc.devRef .tc main_v20) : (⟨S64x64, .f32⟩ : BufTy).Contents (Elt Ideal)) = extractStridedSlice S64x64 ![0, 0] (A7 m c) slices_S128x64_S64x64_0_0 :=
  (W2_of_ne m ρ c main_v20 (by decide)).trans (L1_v20 m ρ c)
theorem L3_v20 (c : Dev nD) :
    (W3 (F := Ideal) m ρ c (Proc.devRef .tc main_v20) : (⟨S64x64, .f32⟩ : BufTy).Contents (Elt Ideal)) = extractStridedSlice S64x64 ![0, 0] (A7 m c) slices_S128x64_S64x64_0_0 :=
  (show StableHlo.after hostOps1 (W2 m ρ c) (Proc.devRef .tc main_v20) = W2 m ρ c (Proc.devRef .tc main_v20) from by
    not_written_by hostOps1).trans (L2_v20 m ρ c)
theorem L4_v20 (c : Dev nD) :
    (W4 (F := Ideal) m ρ c (Proc.devRef .tc main_v20) : (⟨S64x64, .f32⟩ : BufTy).Contents (Elt Ideal)) = extractStridedSlice S64x64 ![0, 0] (A7 m c) slices_S128x64_S64x64_0_0 :=
  (W4_of_ne m ρ c main_v20 (by decide)).trans (L3_v20 m ρ c)
theorem L5_v20 (c : Dev nD) :
    (W5 (F := Ideal) m ρ c (Proc.devRef .tc main_v20) : (⟨S64x64, .f32⟩ : BufTy).Contents (Elt Ideal)) = extractStridedSlice S64x64 ![0, 0] (A7 m c) slices_S128x64_S64x64_0_0 :=
  (show StableHlo.after hostOps2 (W4 m ρ c) (Proc.devRef .tc main_v20) = W4 m ρ c (Proc.devRef .tc main_v20) from by
    not_written_by hostOps2).trans (L4_v20 m ρ c)

theorem L1_v21 (c : Dev nD) :
    (W1 (F := Ideal) m ρ c (Proc.devRef .tc main_v21) : (⟨S64x64, .f32⟩ : BufTy).Contents (Elt Ideal)) = extractStridedSlice S64x64 ![64, 0] (A7 m c) slices_S128x64_S64x64_64_0 := by
  show StableHlo.after hostOps0 (W0 m ρ c) (Proc.devRef .tc main_v21) = _
  after_results
theorem L2_v21 (c : Dev nD) :
    (W2 (F := Ideal) m ρ c (Proc.devRef .tc main_v21) : (⟨S64x64, .f32⟩ : BufTy).Contents (Elt Ideal)) = extractStridedSlice S64x64 ![64, 0] (A7 m c) slices_S128x64_S64x64_64_0 :=
  (W2_of_ne m ρ c main_v21 (by decide)).trans (L1_v21 m ρ c)
theorem L3_v21 (c : Dev nD) :
    (W3 (F := Ideal) m ρ c (Proc.devRef .tc main_v21) : (⟨S64x64, .f32⟩ : BufTy).Contents (Elt Ideal)) = extractStridedSlice S64x64 ![64, 0] (A7 m c) slices_S128x64_S64x64_64_0 :=
  (show StableHlo.after hostOps1 (W2 m ρ c) (Proc.devRef .tc main_v21) = W2 m ρ c (Proc.devRef .tc main_v21) from by
    not_written_by hostOps1).trans (L2_v21 m ρ c)
theorem L4_v21 (c : Dev nD) :
    (W4 (F := Ideal) m ρ c (Proc.devRef .tc main_v21) : (⟨S64x64, .f32⟩ : BufTy).Contents (Elt Ideal)) = extractStridedSlice S64x64 ![64, 0] (A7 m c) slices_S128x64_S64x64_64_0 :=
  (W4_of_ne m ρ c main_v21 (by decide)).trans (L3_v21 m ρ c)
theorem L5_v21 (c : Dev nD) :
    (W5 (F := Ideal) m ρ c (Proc.devRef .tc main_v21) : (⟨S64x64, .f32⟩ : BufTy).Contents (Elt Ideal)) = extractStridedSlice S64x64 ![64, 0] (A7 m c) slices_S128x64_S64x64_64_0 :=
  (show StableHlo.after hostOps2 (W4 m ρ c) (Proc.devRef .tc main_v21) = W4 m ρ c (Proc.devRef .tc main_v21) from by
    not_written_by hostOps2).trans (L4_v21 m ρ c)

/-! ## One aggregation step, as each later host stretch performs it -/

set_option maxHeartbeats 1000000 in
theorem stretch1 (W : Valuation τ sig (Elt Ideal)) :
    (StableHlo.after hostOps1 W (Proc.devRef .tc main_v32) : (⟨S100000x64, .f32⟩ : BufTy).Contents (Elt Ideal))
      = Stages.agg (W (Proc.devRef .tc main_arg1)) (W (Proc.devRef .tc main_arg2)) (W (Proc.devRef .tc main_v22)) := by
  after_results
  rfl

set_option maxHeartbeats 1000000 in
theorem stretch2 (W : Valuation τ sig (Elt Ideal)) :
    (StableHlo.after hostOps2 W (Proc.devRef .tc main_v43) : (⟨S100000x64, .f32⟩ : BufTy).Contents (Elt Ideal))
      = Stages.agg (W (Proc.devRef .tc main_arg1)) (W (Proc.devRef .tc main_arg2)) (W (Proc.devRef .tc main_v33_1)) := by
  after_results
  rfl

set_option maxHeartbeats 1000000 in
theorem stretch3 (W : Valuation τ sig (Elt Ideal)) :
    (StableHlo.after hostOps3 W (Proc.devRef .tc main_v54) : (⟨S100000x64, .f32⟩ : BufTy).Contents (Elt Ideal))
      = Stages.agg (W (Proc.devRef .tc main_arg1)) (W (Proc.devRef .tc main_arg2)) (W (Proc.devRef .tc main_v44)) := by
  after_results
  rfl

/-! ## The stages -/

/-- After the first launch: the first pre-aggregation rows. -/
theorem T2_v22 (c : Dev nD) :
    (W2 (F := Ideal) m ρ c (Proc.devRef .tc main_v22) : (⟨S100000x64, .f32⟩ : BufTy).Contents (Elt Ideal))
      = val_main_v18 (F := Ideal) (A0 m c) (A1 m c) (A3 m c) := by
  refine (W2_arr m ρ c 3).trans ((Region0.final (V1 m ρ) c).trans ?_)
  show Region0.G (W1 m ρ c (Proc.devRef .tc main_arg0)) (W1 m ρ c (Proc.devRef .tc main_v13))
    (W1 m ρ c (Proc.devRef .tc main_arg3)) = _
  rw [L1_arg0 m ρ c, L1_v13 m ρ c, L1_arg3 m ρ c]
  exact Cert.ReferenceIdeal.Stages.v18_eq _ _ _ _

/-- After the first aggregation: the first aggregated rows. -/
theorem T3_v32 (c : Dev nD) :
    (W3 (F := Ideal) m ρ c (Proc.devRef .tc main_v32) : (⟨S100000x64, .f32⟩ : BufTy).Contents (Elt Ideal))
      = val_main_v28 (F := Ideal) (A0 m c) (A1 m c) (A2 m c) (A3 m c) := by
  refine (stretch1 (W2 m ρ c)).trans ?_
  rw [L2_arg1 m ρ c, L2_arg2 m ρ c, T2_v22 m ρ c]
  exact (Cert.ReferenceIdeal.Stages.v28_eq _ _ _ _).symm

/-- After the second launch, first output: the first layer's output. -/
theorem T4_v33_0 (c : Dev nD) :
    (W4 (F := Ideal) m ρ c (Proc.devRef .tc main_v33_0) : (⟨S100000x64, .f32⟩ : BufTy).Contents (Elt Ideal))
      = val_main_v35 (F := Ideal) (A0 m c) (A1 m c) (A2 m c) (A3 m c) (A4 m c) := by
  refine (W4_arr m ρ c 5).trans ((Region1.final_5 (V3 m ρ) c).trans ?_)
  show Region1.H (W3 m ρ c (Proc.devRef .tc main_v32)) (W3 m ρ c (Proc.devRef .tc main_v16))
    (W3 m ρ c (Proc.devRef .tc main_v17)) = _
  rw [T3_v32 m ρ c, L3_v16 m ρ c, L3_v17 m ρ c]
  exact Cert.ReferenceIdeal.Stages.v35_eq _ _ _ _ _ _ _

/-- After the second launch, second output: the second pre-aggregation rows. -/
theorem T4_v33_1 (c : Dev nD) :
    (W4 (F := Ideal) m ρ c (Proc.devRef .tc main_v33_1) : (⟨S100000x64, .f32⟩ : BufTy).Contents (Elt Ideal))
      = val_main_v39 (F := Ideal) (A0 m c) (A1 m c) (A2 m c) (A3 m c) (A4 m c) (A5 m c) := by
  refine (W4_arr m ρ c 6).trans ((Region1.final_6 (V3 m ρ) c).trans ?_)
  show Region1.L (W3 m ρ c (Proc.devRef .tc main_v32)) (W3 m ρ c (Proc.devRef .tc main_v16))
    (W3 m ρ c (Proc.devRef .tc main_v17)) (W3 m ρ c (Proc.devRef .tc main_v13))
    (W3 m ρ c (Proc.devRef .tc main_arg5)) = _
  rw [T3_v32 m ρ c, L3_v16 m ρ c, L3_v17 m ρ c, L3_v13 m ρ c, L3_arg5 m ρ c]
  unfold Region1.L Region1.H
  rw [Cert.ReferenceIdeal.Stages.v35_eq]
  exact Cert.ReferenceIdeal.Stages.v39_eq _ _ _ _ _ _ _

/-- After the second aggregation: the second aggregated rows. -/
theorem T5_v43 (c : Dev nD) :
    (W5 (F := Ideal) m ρ c (Proc.devRef .tc main_v43) : (⟨S100000x64, .f32⟩ : BufTy).Contents (Elt Ideal))
      = val_main_v49 (F := Ideal) (A0 m c) (A1 m c) (A2 m c) (A3 m c) (A4 m c) (A5 m c) := by
  refine (stretch2 (W4 m ρ c)).trans ?_
  rw [L4_arg1 m ρ c, L4_arg2 m ρ c, T4_v33_1 m ρ c]
  exact (Cert.ReferenceIdeal.Stages.v49_eq _ _ _ _ _ _).symm

/-- The first layer's output is still there when the third launch starts. -/
theorem T5_v33_0 (c : Dev nD) :
    (W5 (F := Ideal) m ρ c (Proc.devRef .tc main_v33_0) : (⟨S100000x64, .f32⟩ : BufTy).Contents (Elt Ideal))
      = val_main_v35 (F := Ideal) (A0 m c) (A1 m c) (A2 m c) (A3 m c) (A4 m c) :=
  (show StableHlo.after hostOps2 (W4 m ρ c) (Proc.devRef .tc main_v33_0) = W4 m ρ c (Proc.devRef .tc main_v33_0) from by
    not_written_by hostOps2).trans (T4_v33_0 m ρ c)

/-- The rows the last aggregation gathers: first layer's output times the upper half of the last weights plus second
    layer's output times the lower half. -/
def weighted (c : Dev nD) : S100000x64.Idx → EReal := fun i =>
  matProd (M := 100000) (val_main_v35 (F := Ideal) (A0 m c) (A1 m c) (A2 m c) (A3 m c) (A4 m c))
      (extractStridedSlice S64x64 ![0, 0] (A7 m c) slices_S128x64_S64x64_0_0) i
    + matProd (M := 100000) (val_main_v56 (F := Ideal) (A0 m c) (A1 m c) (A2 m c) (A3 m c) (A4 m c) (A5 m c) (A6 m c))
      (extractStridedSlice S64x64 ![64, 0] (A7 m c) slices_S128x64_S64x64_64_0) i

/-- After the third launch: the weighted rows. -/
theorem T6_v44 (c : Dev nD) :
    (W6 (F := Ideal) m ρ c (Proc.devRef .tc main_v44) : (⟨S100000x64, .f32⟩ : BufTy).Contents (Elt Ideal)) = weighted m c := by
  refine (W6_arr m ρ c 6).trans ((Region2.final_6 (V5 m ρ) c).trans ?_)
  show Region2.Z (W5 m ρ c (Proc.devRef .tc main_v43)) (W5 m ρ c (Proc.devRef .tc main_v16))
    (W5 m ρ c (Proc.devRef .tc main_v18)) (W5 m ρ c (Proc.devRef .tc main_v33_0))
    (W5 m ρ c (Proc.devRef .tc main_v20)) (W5 m ρ c (Proc.devRef .tc main_v21)) = _
  rw [T5_v43 m ρ c, L5_v16 m ρ c, L5_v18 m ρ c, T5_v33_0 m ρ c, L5_v20 m ρ c, L5_v21 m ρ c]
  unfold Region2.Z Region2.twoProd
  rw [Cert.ReferenceIdeal.Stages.v56_eq]
  rfl

/-- After the last aggregation. -/
theorem T7_v54 (c : Dev nD) :
    (W7 (F := Ideal) m ρ c (Proc.devRef .tc main_v54) : (⟨S100000x64, .f32⟩ : BufTy).Contents (Elt Ideal))
      = Stages.agg (A1 m c) (A2 m c) (weighted m c) := by
  refine (stretch3 (W6 m ρ c)).trans ?_
  rw [L6_arg1 m ρ c, L6_arg2 m ρ c, T6_v44 m ρ c]

/-- The kernel's result: the aggregated weighted rows plus the output bias row. -/
def out (c : Dev nD) : S100000x64.Idx → EReal :=
  addRow (M := 100000) (Stages.agg (A1 m c) (A2 m c) (weighted m c)) (Stages.asRow shapeCasts_S64_S1x64 (A8 m c))

/-- After the fourth launch: the result buffer. -/
theorem T8_v55 (c : Dev nD) :
    (W8 (F := Ideal) m ρ c (Proc.devRef .tc main_v55) : (⟨S100000x64, .f32⟩ : BufTy).Contents (Elt Ideal)) = out m c := by
  refine (W8_arr m ρ c 2).trans ((Region3.final_2 (V7 m ρ) c).trans ?_)
  show addRow (M := 100000) (W7 m ρ c (Proc.devRef .tc main_v54)) (W7 m ρ c (Proc.devRef .tc main_v19)) = _
  rw [T7_v54 m ρ c, L7_v19 m ρ c]
  rfl

end Cert.KernelIdeal.Fold

end
-- ==== Proof.SumLaw.lean ====
/-
  The law that joins the two programs' last stage, on the extended reals.

  One program multiplies each gathered row by the weight matrix first and then adds the rows that land on a node; the
  other adds the gathered rows first and multiplies the sum by the weight matrix afterwards. Moving a factor across a
  sum, `(a + b) * w = a * w + b * w`, fails on the extended reals when `a` and `b` are infinite of opposite signs;
  it holds whenever `a` and `b` are both non-negative, and that is the case here: every summand is an output of
  `max · 0`, or zero. The other steps (swapping two finite sums, pulling a sum out of a choice between it and zero,
  cutting a sum over 128 columns into two sums over 64) use only that addition is commutative and associative.
-/
import Idealize.ShloMosaic.PureOps.Ideal

noncomputable section

namespace Cert.Bridge.SumLaw

open scoped BigOperators

/-- A factor moves across a finite sum of non-negative extended reals. -/
theorem sum_mul_of_nonneg {ι : Type} (s : Finset ι) (a : ι → EReal) (w : EReal) (ha : ∀ i ∈ s, 0 ≤ a i) :
    (∑ i ∈ s, a i) * w = ∑ i ∈ s, a i * w := by
  classical
  induction s using Finset.induction_on with
  | empty => simp
  | insert x t hx ih =>
    rw [Finset.sum_insert hx, Finset.sum_insert hx,
      EReal.right_distrib_of_nonneg (ha x (Finset.mem_insert_self x t))
        (Finset.sum_nonneg fun i hi => ha i (Finset.mem_insert_of_mem hi)),
      ih fun i hi => ha i (Finset.mem_insert_of_mem hi)]

/-- A sum of terms each chosen (by one condition) between a value and zero is the choice between the sum and zero. -/
theorem sum_ite_const {ι : Type} (s : Finset ι) (p : Prop) [Decidable p] (f : ι → EReal) :
    (∑ j ∈ s, if p then f j else 0) = if p then ∑ j ∈ s, f j else 0 := by
  by_cases h : p
  · simp only [if_pos h]
  · simp only [if_neg h, Finset.sum_const_zero]

/-- Weighting after adding the selected rows is adding the selected weighted rows, when the rows are non-negative:
    `∑ j, (0 + ∑ e, [sel e] J e j) * W j = 0 + ∑ e, [sel e] (∑ j, J e j * W j)`. -/
theorem weigh_after_sum {ε κ : Type} [Fintype ε] [Fintype κ] (sel : ε → Prop) [DecidablePred sel]
    (J : ε → κ → EReal) (W : κ → EReal) (hJ : ∀ e j, 0 ≤ J e j) :
    (∑ j : κ, ((0 : EReal) + ∑ e : ε, if sel e then J e j else 0) * W j)
      = (0 : EReal) + ∑ e : ε, if sel e then ∑ j : κ, J e j * W j else 0 := by
  have hterm : ∀ j : κ, ((0 : EReal) + ∑ e : ε, if sel e then J e j else 0) * W j
      = ∑ e : ε, if sel e then J e j * W j else 0 := by
    intro j
    rw [zero_add, sum_mul_of_nonneg Finset.univ _ _ (fun e _ => by
      by_cases h : sel e
      · rw [if_pos h]; exact hJ e j
      · rw [if_neg h])]
    refine Finset.sum_congr rfl fun e _ => ?_
    by_cases h : sel e
    · rw [if_pos h, if_pos h]
    · rw [if_neg h, if_neg h, zero_mul]
  rw [Finset.sum_congr rfl fun j _ => hterm j, Finset.sum_comm, zero_add]
  exact Finset.sum_congr rfl fun e _ => sum_ite_const Finset.univ (sel e) _

/-- A sum over 128 columns is the sum over the first 64 plus the sum over the last 64. -/
theorem sum_split_128 (f : Fin 128 → EReal) :
    (∑ j : Fin 128, f j)
      = (∑ k : Fin 64, f ⟨k.val, by omega⟩) + ∑ k : Fin 64, f ⟨64 + k.val, by omega⟩ := by
  have h := Fin.sum_univ_add (M := EReal) (a := 64) (b := 64) (fun j : Fin (64 + 64) => f ⟨j.val, j.isLt⟩)
  refine h.trans ?_
  rfl

end Cert.Bridge.SumLaw

end
-- ==== Proof.AggAt.lean ====
/-
  One aggregation step read at a node and a column.

  An aggregation step starts from a table of zeros and, for every edge `e`, adds row `row e` of its operand — the
  row named by the edge's wrapped source word, clamped into the table — into the row named by the edge's destination
  word. Read at `(n, c)` that is `0` plus the sum, over the edges whose destination word reads `n`, of the operand at
  `(row e, c)`. The reference's 128-column aggregation of the concatenated layer outputs reads the same way, with the
  same destination and source words. (The accumulating scatter is read at an index for arbitrary operands first, so
  that nothing about the particular tables is unfolded.)
-/
import proofs.«106296_j65111704207521_2_alg».proof.Proof.RefStages

set_option maxRecDepth 16384

noncomputable section

namespace Cert.ReferenceIdeal.Last

open Idealize.ShloMosaic Idealize.ShloMosaic.TcCoe Idealize.ShloMosaic.ValueIdx
open Cert.ReferenceIdeal Cert.ReferenceIdeal.Read Cert.ReferenceIdeal.Stages
open Cert.Bridge.Spec Cert.Bridge.Layout Cert.Dense Cert.Bridge.GraphOps
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S128x64, .f32⟩ : BufTy).Contents (Elt Ideal)) (x8 : (⟨S64, .f32⟩ : BufTy).Contents (Elt Ideal))

/-- The 64-column accumulating scatter at `(n, c)`, for any operands. -/
theorem scat64_apply (x : FVec Ideal S100000x64 .f32) (idx : IVec S1600000x1 32) (upd : FVec Ideal S1600000x64 .f32)
    (n : Fin 100000) (c : Fin 64) :
    Host.scatterAdd (F := Ideal) (φ := .f32) scatter_S100000x64_S1600000x1_S1600000x64_1_0_0_1 x idx upd (ix2 n c)
      = x (ix2 n c) + ∑ k : Fin 1600000, if (idx (ix2 k (0 : Fin 1))).toInt = (n.val : ℤ) then upd (ix2 k c) else 0 := by
  show Ideal.hostScatterAdd scatter_S100000x64_S1600000x1_S1600000x64_1_0_0_1 x idx upd (ix2 n c) = _
  exact scatterAdd_rows_apply (N := 100000) (E := 1600000) (C := 64)
    scatter_S100000x64_S1600000x1_S1600000x64_1_0_0_1.wf x idx upd n c

/-- The 128-column accumulating scatter at `(n, j)`, for any operands. -/
theorem scat128_apply (x : FVec Ideal S100000x128 .f32) (idx : IVec S1600000x1 32) (upd : FVec Ideal S1600000x128 .f32)
    (n : Fin 100000) (j : Fin 128) :
    Host.scatterAdd (F := Ideal) (φ := .f32) scatter_S100000x128_S1600000x1_S1600000x128_1_0_0_1 x idx upd (ix2 n j)
      = x (ix2 n j) + ∑ k : Fin 1600000, if (idx (ix2 k (0 : Fin 1))).toInt = (n.val : ℤ) then upd (ix2 k j) else 0 := by
  show Ideal.hostScatterAdd scatter_S100000x128_S1600000x1_S1600000x128_1_0_0_1 x idx upd (ix2 n j) = _
  exact scatterAdd_rows_apply (N := 100000) (E := 1600000) (C := 128)
    scatter_S100000x128_S1600000x1_S1600000x128_1_0_0_1.wf x idx upd n j

/-- The 64-column row lookup at `(e, c)`, for any table and index column. -/
theorem gath64_apply (X : FVec Ideal S100000x64 .f32) (idx : IVec S1600000x1 32) (e : Fin 1600000) (c : Fin 64) :
    Host.gather gather_S100000x64_S1600000x1_S1600000x64_1_0_n_n_0_1_164 X idx (ix2 e c)
      = X (ix2 (⟨min (idx (ix2 e (0 : Fin 1))).toInt.toNat (100000 - 1), by omega⟩ : Fin 100000) c) :=
  gather_rows_apply (N := 100000) (E := 1600000) (C := 64) (by decide)
    gather_S100000x64_S1600000x1_S1600000x64_1_0_n_n_0_1_164.wf X idx e c

/-- The 128-column row lookup at `(e, j)`, for any table and index column. -/
theorem gath128_apply (X : FVec Ideal S100000x128 .f32) (idx : IVec S1600000x1 32) (e : Fin 1600000) (j : Fin 128) :
    Host.gather gather_S100000x128_S1600000x1_S1600000x128_1_0_n_n_0_1_1128 X idx (ix2 e j)
      = X (ix2 (⟨min (idx (ix2 e (0 : Fin 1))).toInt.toNat (100000 - 1), by omega⟩ : Fin 100000) j) :=
  gather_rows_apply (N := 100000) (E := 1600000) (C := 128) (by decide)
    gather_S100000x128_S1600000x1_S1600000x128_1_0_n_n_0_1_1128.wf X idx e j

/-- The last aggregation's destination words are the first aggregation's. -/
theorem v66_eq : val_main_v66 (F := Ideal) x2 = val_main_v27 (F := Ideal) x2 := rfl
/-- The last aggregation's wrapped source words are the first aggregation's. -/
theorem v63_eq : val_main_v63 (F := Ideal) x1 = val_main_v24 (F := Ideal) x1 := rfl

/-- The source row of edge `e`: its (wrapped) index word read signed, clamped into the table. -/
def rowAt (e : Fin 1600000) : Fin 100000 :=
  ⟨min (val_main_v24 (F := Ideal) x1 (ix2 e (0 : Fin 1))).toInt.toNat (100000 - 1), by omega⟩

/-- Edge `e` lands on node `n`: its destination word reads `n`. -/
abbrev lands (n : Fin 100000) (e : Fin 1600000) : Prop :=
  (val_main_v27 (F := Ideal) x2 (ix2 e (0 : Fin 1))).toInt = (n.val : ℤ)

theorem zero26 (i : S100000x64.Idx) : val_main_v26 (F := Ideal) i = 0 := by
  rw [val_main_v26_apply]
  exact Ideal.ofBits_zero_f32

theorem zero65 (i : S100000x128.Idx) : val_main_v65 (F := Ideal) i = 0 := by
  rw [val_main_v65_apply]
  exact Ideal.ofBits_zero_f32

/-- One aggregation step at `(n, c)`: the rows of the selected edges, added. -/
theorem agg_apply (X : FVec Ideal S100000x64 .f32) (n : Fin 100000) (c : Fin 64) :
    agg x1 x2 X (ix2 n c) = (0 : EReal) + ∑ e : Fin 1600000, if lands x2 n e then X (ix2 (rowAt x1 e) c) else 0 := by
  unfold agg
  rw [scat64_apply, zero26]
  refine congrArg ((0 : EReal) + ·) (Finset.sum_congr rfl fun e _ => ?_)
  rw [gath64_apply]
  rfl

/-- The reference's 128-column aggregation at `(n, j)`. -/
theorem v67_apply (n : Fin 100000) (j : Fin 128) :
    val_main_v67 (F := Ideal) x0 x1 x2 x3 x4 x5 x6 (ix2 n j)
      = (0 : EReal) + ∑ e : Fin 1600000,
          if lands x2 n e then val_main_v57 (F := Ideal) x0 x1 x2 x3 x4 x5 x6 (ix2 (rowAt x1 e) j) else 0 := by
  unfold val_main_v67 val_main_v64
  rw [scat128_apply, zero65, v66_eq, v63_eq]
  refine congrArg ((0 : EReal) + ·) (Finset.sum_congr rfl fun e _ => ?_)
  rw [gath128_apply]
  rfl

end Cert.ReferenceIdeal.Last

end
-- ==== Proof.Concat.lean ====
/-
  The concatenation of the two layers' outputs, column by column: columns 0…63 are the first layer's, columns
  64…127 the second layer's; every entry is a layer output, hence non-negative.
-/
import proofs.«106296_j65111704207521_2_alg».proof.Proof.RefStages

set_option maxRecDepth 16384

noncomputable section

namespace Cert.ReferenceIdeal.Last

open Idealize.ShloMosaic Idealize.ShloMosaic.TcCoe Idealize.ShloMosaic.ValueIdx
open Cert.ReferenceIdeal Cert.ReferenceIdeal.Read Cert.ReferenceIdeal.Stages
open Cert.Bridge.Spec Cert.Bridge.Layout Cert.Dense Cert.Bridge.GraphOps
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S128x64, .f32⟩ : BufTy).Contents (Elt Ideal)) (x8 : (⟨S64, .f32⟩ : BufTy).Contents (Elt Ideal))

/-- The concatenation's first 64 columns are the first layer's output. -/
theorem v57_lo (r : Fin 100000) (k : Fin 64) :
    val_main_v57 (F := Ideal) x0 x1 x2 x3 x4 x5 x6 (ix2 r (⟨k.val, by omega⟩ : Fin 128))
      = val_main_v35 (F := Ideal) x0 x1 x2 x3 x4 (ix2 r k) := by
  unfold val_main_v57
  exact concatenate_pair_apply_left (t := S100000x128) (s₁ := S100000x64) (s₂ := S100000x64) (1 : Fin 2) _ _ _
    (ix2 r (⟨k.val, by omega⟩ : Fin 128)) rfl (ix2 r k)
    (fun b => match b with
      | ⟨0, _⟩ => rfl
      | ⟨1, _⟩ => rfl)

/-- The concatenation's last 64 columns are the second layer's output. -/
theorem v57_hi (r : Fin 100000) (k : Fin 64) :
    val_main_v57 (F := Ideal) x0 x1 x2 x3 x4 x5 x6 (ix2 r (⟨64 + k.val, by omega⟩ : Fin 128))
      = val_main_v56 (F := Ideal) x0 x1 x2 x3 x4 x5 x6 (ix2 r k) := by
  unfold val_main_v57
  exact concatenate_pair_apply_right (t := S100000x128) (s₁ := S100000x64) (s₂ := S100000x64) (1 : Fin 2) _ _ _
    (ix2 r (⟨64 + k.val, by omega⟩ : Fin 128)) rfl rfl (ix2 r k)
    (fun b => match b with
      | ⟨0, _⟩ => fun _ => rfl
      | ⟨1, _⟩ => fun h => absurd rfl h)
    (Nat.add_comm k.val 64)

/-- The concatenated layer outputs are non-negative. -/
theorem v57_nonneg (hc : S100000.ShapeCasts S100000x1) (hr : S64.ShapeCasts S1x64) (r : Fin 100000) (j : Fin 128) :
    0 ≤ val_main_v57 (F := Ideal) x0 x1 x2 x3 x4 x5 x6 (ix2 r j) := by
  by_cases h : j.val < 64
  · have e : j = (⟨(⟨j.val, h⟩ : Fin 64).val, by omega⟩ : Fin 128) := Fin.ext rfl
    rw [e, v57_lo]
    exact v35_nonneg x0 x1 x2 x3 x4 hc hr _
  · have hj := j.isLt
    have e : j = (⟨64 + (⟨j.val - 64, by omega⟩ : Fin 64).val, by omega⟩ : Fin 128) := Fin.ext (by
      show j.val = 64 + (j.val - 64); omega)
    rw [e, v57_hi]
    exact v56_nonneg x0 x1 x2 x3 x4 x5 x6 hc hr _

end Cert.ReferenceIdeal.Last

end
-- ==== Proof.LastStage.lean ====
/-
  The last stage: aggregating already-weighted rows is weighting the aggregated rows.

  Write `h1`, `h2` for the two layers' outputs, `J = [h1 | h2]` for their 128-column concatenation and `W` for the
  last weight matrix (its upper 64 rows `WA`, its lower 64 rows `WB`). For a node `n` let the selected edges be those
  whose destination word reads `n`, and `row e` the (wrapped, clamped) source row of edge `e`.
  * The reference computes `∑ j<128, (0 + ∑ e selected, J(row e, j)) · W(j,c)`, then adds the bias.
  * The kernel computes `0 + ∑ e selected, (∑ k<64, h1(row e,k)·WA(k,c) + ∑ k<64, h2(row e,k)·WB(k,c))`, then adds
    the bias.
  Every `J(row e, j)` is a layer output, hence non-negative, so the factor `W(j,c)` moves inside the sum over edges;
  swapping the two sums and cutting the sum over 128 columns at 64 gives the kernel's expression.
-/
import proofs.«106296_j65111704207521_2_alg».proof.Proof.RefStages
import proofs.«106296_j65111704207521_2_alg».proof.Proof.SumLaw
import proofs.«106296_j65111704207521_2_alg».proof.Proof.AggAt
import proofs.«106296_j65111704207521_2_alg».proof.Proof.Concat

set_option maxRecDepth 16384

noncomputable section

namespace Cert.ReferenceIdeal.Last

open Idealize.ShloMosaic Idealize.ShloMosaic.TcCoe Idealize.ShloMosaic.ValueIdx
open Cert.ReferenceIdeal Cert.ReferenceIdeal.Read Cert.ReferenceIdeal.Stages
open Cert.Bridge.Spec Cert.Bridge.Layout Cert.Dense Cert.Bridge.GraphOps Cert.Bridge.SumLaw
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S128x64, .f32⟩ : BufTy).Contents (Elt Ideal)) (x8 : (⟨S64, .f32⟩ : BufTy).Contents (Elt Ideal))

/-- THE LAST STAGE: the aggregated weighted rows plus the bias row are the reference's result. -/
theorem last_stage (hc : S100000.ShapeCasts S100000x1) (hr : S64.ShapeCasts S1x64)
    (hs0 : S128x64.Slices ![0, 0] S64x64) (hs64 : S128x64.Slices ![64, 0] S64x64) :
    addRow (M := 100000)
        (agg x1 x2 fun i =>
          matProd (M := 100000) (val_main_v35 (F := Ideal) x0 x1 x2 x3 x4) (extractStridedSlice S64x64 ![0, 0] x7 hs0) i
            + matProd (M := 100000) (val_main_v56 (F := Ideal) x0 x1 x2 x3 x4 x5 x6) (extractStridedSlice S64x64 ![64, 0] x7 hs64) i)
        (asRow hr x8)
      = val_main_v71 (F := Ideal) x0 x1 x2 x3 x4 x5 x6 x7 x8 := by
  funext i
  obtain ⟨n, c, rfl⟩ : ∃ (n : Fin 100000) (c : Fin 64), i = ix2 n c := ⟨i 0, i 1, eq_ix2 i⟩
  -- the reference's side: the product over 128 columns of the aggregated concatenation, plus the bias
  rw [val_main_v71_apply, val_main_v70_apply, val_main_v69_apply,
    idx1_eq (idx_main_v69 (idx_main_v70 (ix2 n c))) c rfl]
  have hR : val_main_v68 (F := Ideal) x0 x1 x2 x3 x4 x5 x6 x7 (ix2 n c)
      = ∑ j : Fin 128, ((0 : EReal) + ∑ e : Fin 1600000,
          if lands x2 n e then val_main_v57 (F := Ideal) x0 x1 x2 x3 x4 x5 x6 (ix2 (rowAt x1 e) j) else 0) * x7 (ix2 j c) := by
    unfold val_main_v68
    rw [dotGeneral_eq_matProd dot_S100000x128_S128x64_S100000x64_1_0_0_1_n_n rfl, matProd_apply]
    exact Finset.sum_congr rfl fun j _ => by rw [v67_apply]
  rw [hR, weigh_after_sum (lands x2 n) (fun e j => val_main_v57 (F := Ideal) x0 x1 x2 x3 x4 x5 x6 (ix2 (rowAt x1 e) j))
    (fun j => x7 (ix2 j c)) (fun e j => v57_nonneg x0 x1 x2 x3 x4 x5 x6 hc hr _ j)]
  -- the kernel's side
  show agg x1 x2 _ (ix2 n c) + asRow hr x8 (ix2 (0 : Fin 1) c) = _
  unfold asRow
  rw [shapeCast_a_1a_apply, agg_apply]
  refine congrArg₂ (· + ·) (congrArg ((0 : EReal) + ·) (Finset.sum_congr rfl fun e _ => ?_)) rfl
  refine if_congr Iff.rfl ?_ rfl
  rw [sum_split_128, matProd_apply, matProd_apply]
  refine congrArg₂ (· + ·) (Finset.sum_congr rfl fun k _ => ?_) (Finset.sum_congr rfl fun k _ => ?_)
  · rw [v57_lo, slice2_axis0_eq]
    exact congrArg (fun q => val_main_v35 (F := Ideal) x0 x1 x2 x3 x4 (ix2 (rowAt x1 e) k) * x7 (ix2 q c))
      (Fin.ext (Nat.zero_add k.val))
  · rw [v57_hi, slice2_axis0_eq]

end Cert.ReferenceIdeal.Last

end
-- ==== Proof.lean ====
/-
  A three-layer graph network on 100000 nodes and 1600000 edges: a Pallas kernel program against its jnp reference.

  Both programs compute, per node, the out- and in-degree norms `(max deg 1)^(-1/2)`, two graph-convolution layers
  `h = max ((∑ over incoming edges of ((x · norm_out) W)[source]) · norm_in + b) 0`, and a last aggregation of the two
  layers' outputs through the 128×64 matrix `Wout` plus a bias. They differ in one place: the reference aggregates the
  128-column concatenation `[h1 | h2]` over the edges and multiplies the sums by `Wout`; the kernel multiplies each
  node's `h1` by the upper half of `Wout` and its `h2` by the lower half first, and aggregates the 64-column results.
  On the extended reals the two agree because every aggregated entry is an output of `max · 0`, hence non-negative,
  and a factor moves across a sum of non-negative terms (Proof/SumLaw.lean, Proof/LastStage.lean). Everything before
  that place is the same operations on both sides: the kernel's four launches are read as whole-array formulas
  (Proof/Region0 … Region3), its memory is followed through @main's eight steps (Proof/KernelRun, Proof/Fold), and
  each intermediate array is the reference's corresponding stage (Proof/RefStages). No finiteness of the inputs is
  used. The word-level kernel needs only its frame; the idealization's ledger is empty.
-/
import proofs.«106296_j65111704207521_2_alg».proof.Defs
import proofs.«106296_j65111704207521_2_alg».proof.Proof.Gen.Kernel
import proofs.«106296_j65111704207521_2_alg».proof.Proof.Gen.Kernel.Skeleton
import proofs.«106296_j65111704207521_2_alg».proof.Proof.Gen.Kernel.Launch
import proofs.«106296_j65111704207521_2_alg».proof.Proof.Gen.Kernel.Points
import proofs.«106296_j65111704207521_2_alg».proof.Proof.Gen.Kernel.Frame
import proofs.«106296_j65111704207521_2_alg».proof.Proof.Gen.KernelIdeal
import proofs.«106296_j65111704207521_2_alg».proof.Proof.Gen.KernelIdeal.Skeleton
import proofs.«106296_j65111704207521_2_alg».proof.Proof.Gen.KernelIdeal.Launch
import proofs.«106296_j65111704207521_2_alg».proof.Proof.Gen.KernelIdeal.Points
import proofs.«106296_j65111704207521_2_alg».proof.Proof.Gen.KernelIdeal.Frame
import proofs.«106296_j65111704207521_2_alg».proof.Proof.Gen.ReferenceIdeal
import proofs.«106296_j65111704207521_2_alg».proof.Proof.Gen.Pre_finite_inputs
import proofs.«106296_j65111704207521_2_alg».proof.Proof.Gen.ReferenceIdeal.Run
import proofs.«106296_j65111704207521_2_alg».proof.Proof.Gen.ReferenceIdeal.Read
import proofs.«106296_j65111704207521_2_alg».proof.Proof.KernelRun
import proofs.«106296_j65111704207521_2_alg».proof.Proof.Fold
import proofs.«106296_j65111704207521_2_alg».proof.Proof.LastStage
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel (hKernel := Cert.Kernel.Gen.facts)
    (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- So does the reference: its run, with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Run from memories that agree on the nine arguments, both idealized programs end with the same result array: the
    kernel's memory fold puts `Fold.out` in its result buffer, the reference's run puts its last stage in its own, and
    the last stage is `Fold.out` of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.T8_v55 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v71_eq, e0, e1, e2, e3, e4, e5, e6, e7, e8]
    unfold Cert.KernelIdeal.Fold.out Cert.KernelIdeal.Fold.weighted
    exact (Cert.ReferenceIdeal.Last.last_stage _ _ _ _ _ _ _ _ _ Cert.KernelIdeal.Gen.shapeCasts_S100000_S100000x1 _ _ _).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
